-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1250000x1x64 : Shape := ⟨3, ![1250000, 1, 64]⟩
abbrev S1250000 : Shape := ⟨1, ![1250000]⟩
abbrev S64x128 : Shape := ⟨2, ![64, 128]⟩
abbrev S64 : Shape := ⟨1, ![64]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1250000x1x64 : S_.BroadcastsInDim S1250000x1x64 (![] : Fin 0 → Fin S1250000x1x64.rank)
  reducesTo_S1250000x1x64_S_d0_1_2 : S1250000x1x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x1x64 .f32) (main_arg1 : FVec F S1250000x1x64 .f32) (main_arg2 : IVec S1250000 32) (main_arg3 : IVec S1250000 32) (main_arg4 : FVec F S64x128 .f32) (main_arg5 : FVec F S64 .f32) (main_arg6 : FVec F S64x128 .f32) (main_arg7 : FVec F S64 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1250000x1x64 .f32 := Host.absf main_arg1
  let main_cst_0 : FVec F S_ .f32 := constant S_ .f32 0x7F800000#32
  let main_v5 : FVec F S1250000x1x64 .f32 := broadcastInDim S1250000x1x64 ![] bcast_S_S1250000x1x64 main_cst_0
  let main_v6 : IVec S1250000x1x64 1 := cmpf .olt main_v4 main_v5
  let main_c_1 : IVec S_ 1 := constantI S_ 1 1#1
  let main_v7 : IVec S_ 1 := (fun x v => Host.reduce IntOp.andi x v reducesTo_S1250000x1x64_S_d0_1_2 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x1x64 : Shape := ⟨3, ![100000, 1, 64]⟩
abbrev S1250000x1x64 : Shape := ⟨3, ![1250000, 1, 64]⟩
abbrev S1250000 : Shape := ⟨1, ![1250000]⟩
abbrev S64x128 : Shape := ⟨2, ![64, 128]⟩
abbrev S64 : Shape := ⟨1, ![64]⟩
abbrev S100000x64 : Shape := ⟨2, ![100000, 64]⟩
abbrev S1250000x64 : Shape := ⟨2, ![1250000, 64]⟩
abbrev S_ : Shape := ⟨0, ![]⟩
abbrev S1250000x1 : Shape := ⟨2, ![1250000, 1]⟩
abbrev S1250000x128 : Shape := ⟨2, ![1250000, 128]⟩
abbrev S128x64 : Shape := ⟨2, ![128, 64]⟩
abbrev S1x64 : Shape := ⟨2, ![1, 64]⟩
abbrev S25000x128 : Shape := ⟨2, ![25000, 128]⟩
abbrev S25000x64 : Shape := ⟨2, ![25000, 64]⟩
abbrev S100000 : Shape := ⟨1, ![100000]⟩
abbrev S100000x1 : Shape := ⟨2, ![100000, 1]⟩
abbrev S100000x128 : Shape := ⟨2, ![100000, 128]⟩
abbrev S20000x128 : Shape := ⟨2, ![20000, 128]⟩
abbrev S20000x64 : Shape := ⟨2, ![20000, 64]⟩

abbrev nBuf : Space → Nat
  | .hbm => 48
  | .vmem => 12
  | .smem => 0
  | _ => 0

abbrev bufTy : (tb : Table) → Fin (tcTables nBuf tb) → BufTy
  | .hbm, ⟨0, _⟩ => ⟨S100000x1x64, .f32⟩
  | .hbm, ⟨1, _⟩ => ⟨S1250000x1x64, .f32⟩
  | .hbm, ⟨2, _⟩ => ⟨S1250000, .i32⟩
  | .hbm, ⟨3, _⟩ => ⟨S1250000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S100000x64, .f32⟩
  | .hbm, ⟨9, _⟩ => ⟨S1250000x64, .f32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S1250000x128, .f32⟩
  | .hbm, ⟨20, _⟩ => ⟨S1250000x128, .bf16⟩
  | .hbm, ⟨21, _⟩ => ⟨S128x64, .f32⟩
  | .hbm, ⟨22, _⟩ => ⟨S128x64, .bf16⟩
  | .hbm, ⟨23, _⟩ => ⟨S1x64, .f32⟩
  | .hbm, ⟨24, _⟩ => ⟨S1250000x64, .f32⟩
  | .hbm, ⟨25, _⟩ => ⟨S_, .f32⟩
  | .hbm, ⟨26, _⟩ => ⟨S100000x64, .f32⟩
  | .hbm, ⟨27, _⟩ => ⟨S1250000x1, .i32⟩
  | .hbm, ⟨28, _⟩ => ⟨S100000x64, .f32⟩
  | .hbm, ⟨29, _⟩ => ⟨S_, .f32⟩
  | .hbm, ⟨30, _⟩ => ⟨S1250000, .f32⟩
  | .hbm, ⟨31, _⟩ => ⟨S_, .f32⟩
  | .hbm, ⟨32, _⟩ => ⟨S100000, .f32⟩
  | .hbm, ⟨33, _⟩ => ⟨S1250000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S100000x128, .bf16⟩
  | .hbm, ⟨43, _⟩ => ⟨S128x64, .f32⟩
  | .hbm, ⟨44, _⟩ => ⟨S128x64, .bf16⟩
  | .hbm, ⟨45, _⟩ => ⟨S1x64, .f32⟩
  | .hbm, ⟨46, _⟩ => ⟨S100000x64, .f32⟩
  | .hbm, ⟨47, _⟩ => ⟨S100000x1x64, .f32⟩
  | .local _ .vmem, ⟨0, _⟩ => ⟨S25000x128, .bf16⟩
  | .local _ .vmem, ⟨1, _⟩ => ⟨S25000x128, .bf16⟩
  | .local _ .vmem, ⟨2, _⟩ => ⟨S128x64, .bf16⟩
  | .local _ .vmem, ⟨3, _⟩ => ⟨S1x64, .f32⟩
  | .local _ .vmem, ⟨4, _⟩ => ⟨S25000x64, .f32⟩
  | .local _ .vmem, ⟨5, _⟩ => ⟨S25000x64, .f32⟩
  | .local _ .vmem, ⟨6, _⟩ => ⟨S20000x128, .bf16⟩
  | .local _ .vmem, ⟨7, _⟩ => ⟨S20000x128, .bf16⟩
  | .local _ .vmem, ⟨8, _⟩ => ⟨S128x64, .bf16⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S100000x1x64_S100000x64 : S100000x1x64.ShapeCasts S100000x64
  shapeCasts_S1250000x1x64_S1250000x64 : S1250000x1x64.ShapeCasts S1250000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  bitsLt_bf16_f32 : FTy.bits .bf16 < FTy.bits .f32
  transposes_S64x128_S128x64_1_0 : S64x128.Transposes [1, 0] S128x64
  shapeCasts_S64_S1x64 : S64.ShapeCasts S1x64
  inb_S25000x128_S25000x128_0_0 : ∀ a, (![0, 0] : Fin 2 → Nat) a + S25000x128.size a ≤ S25000x128.size a
  h_S25000x128 : 0 < S25000x128.numel
  shapeCasts_S25000x128_S25000x128 : S25000x128.ShapeCasts S25000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  inb_S25000x64_S25000x64_0_0 : ∀ a, (![0, 0] : Fin 2 → Nat) a + S25000x64.size a ≤ S25000x64.size a
  h_S25000x64 : 0 < S25000x64.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  shapeCasts_S100000x64_S100000x1x64 : S100000x64.ShapeCasts S100000x1x64
  gather_S100000x64_S1250000x1_S1250000x64_1_0_n_n_0_1_164_wf : GatherDims.WF S100000x64 S1250000x1 S1250000x64 [1] [0] [] [0] [] 1 ![1, 64]
  dot_S25000x128_S128x64_S25000x64_1_0_0_1_n_n_wf : DotDims.WF S25000x128 S128x64 S25000x64 [1] [0] [0] [1] [] []
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S20000x128_S128x64_S20000x64_1_0_0_1_n_n_wf : DotDims.WF S20000x128 S128x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x128.size a ≤ S1250000x128.size a
  hwx0_0 : ∀ i : grid0.Coords, EltTy.bits .bf16 = 32 ∨ (Rect.block (s := S1250000x128) S25000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S25000x64.size a ≤ S1250000x64.size a
  hwx0_3 : ∀ i : grid0.Coords, EltTy.bits .f32 = 32 ∨ (Rect.block (s := S1250000x64) S25000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .bf16 = 32 ∨ (Rect.block (s := S100000x128) S20000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S25000x128_S128x64_S25000x64_1_0_0_1_n_n : DotDims S25000x128 S128x64 S25000x64 where
  lhsContracting := [1]
  rhsContracting := [0]
  lhsNonContracting := [0]
  rhsNonContracting := [1]
  lhsBatch := []
  rhsBatch := []
  wf := dot_S25000x128_S128x64_S25000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

abbrev win0_0 : Pipeline.Window sig grid0 :=
  Pipeline.Window.ofSpec (Memref.whole main_v10) S25000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S25000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1x64 : Shape := ⟨3, ![100000, 1, 64]⟩
abbrev S1250000x1x64 : Shape := ⟨3, ![1250000, 1, 64]⟩
abbrev S1250000 : Shape := ⟨1, ![1250000]⟩
abbrev S64x128 : Shape := ⟨2, ![64, 128]⟩
abbrev S64 : Shape := ⟨1, ![64]⟩
abbrev S_ : Shape := ⟨0, ![]⟩
abbrev S1250000x1 : Shape := ⟨2, ![1250000, 1]⟩
abbrev S1250000x1x128 : Shape := ⟨3, ![1250000, 1, 128]⟩
abbrev S1x1x64 : Shape := ⟨3, ![1, 1, 64]⟩
abbrev S100000 : Shape := ⟨1, ![100000]⟩
abbrev S100000x1x1 : Shape := ⟨3, ![100000, 1, 1]⟩
abbrev S100000x1x128 : Shape := ⟨3, ![100000, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1250000x1x64, .f32⟩
  | .hbm, ⟨2, _⟩ => ⟨S1250000, .i32⟩
  | .hbm, ⟨3, _⟩ => ⟨S1250000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x1x64, .f32⟩
  | .hbm, ⟨17, _⟩ => ⟨S1250000x1x128, .f32⟩
  | .hbm, ⟨18, _⟩ => ⟨S1250000x1x64, .f32⟩
  | .hbm, ⟨19, _⟩ => ⟨S1x1x64, .f32⟩
  | .hbm, ⟨20, _⟩ => ⟨S1250000x1x64, .f32⟩
  | .hbm, ⟨21, _⟩ => ⟨S1250000x1x64, .f32⟩
  | .hbm, ⟨22, _⟩ => ⟨S_, .f32⟩
  | .hbm, ⟨23, _⟩ => ⟨S100000x1x64, .f32⟩
  | .hbm, ⟨24, _⟩ => ⟨S1250000x1, .i32⟩
  | .hbm, ⟨25, _⟩ => ⟨S100000x1x64, .f32⟩
  | .hbm, ⟨26, _⟩ => ⟨S_, .f32⟩
  | .hbm, ⟨27, _⟩ => ⟨S1250000, .f32⟩
  | .hbm, ⟨28, _⟩ => ⟨S_, .f32⟩
  | .hbm, ⟨29, _⟩ => ⟨S100000, .f32⟩
  | .hbm, ⟨30, _⟩ => ⟨S1250000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1x1, .f32⟩
  | .hbm, ⟨36, _⟩ => ⟨S100000x1x64, .f32⟩
  | .hbm, ⟨37, _⟩ => ⟨S100000x1x64, .f32⟩
  | .hbm, ⟨38, _⟩ => ⟨S100000x1x128, .f32⟩
  | .hbm, ⟨39, _⟩ => ⟨S100000x1x64, .f32⟩
  | .hbm, ⟨40, _⟩ => ⟨S1x1x64, .f32⟩
  | .hbm, ⟨41, _⟩ => ⟨S100000x1x64, .f32⟩
  | .hbm, ⟨42, _⟩ => ⟨S100000x1x64, .f32⟩
  | .hbm, ⟨43, _⟩ => ⟨S_, .f32⟩
  | .hbm, ⟨44, _⟩ => ⟨S100000x1x64, .f32⟩
  | .hbm, ⟨45, _⟩ => ⟨S100000x1x64, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x1x64_S1250000x1x64_S1250000x1x128_d2 : Shape.Concatenates [S1250000x1x64, S1250000x1x64] S1250000x1x128 2
  bcast_S64_S1x1x64_2 : S64.BroadcastsInDim S1x1x64 (![2] : Fin 1 → Fin S1x1x64.rank)
  bcast_S1x1x64_S1250000x1x64_0_1_2 : S1x1x64.BroadcastsInDim S1250000x1x64 (![0, 1, 2] : Fin 3 → Fin S1250000x1x64.rank)
  bcast_S_S100000x1x64 : S_.BroadcastsInDim S100000x1x64 (![] : Fin 0 → Fin S100000x1x64.rank)
  bcast_S_S100000 : S_.BroadcastsInDim S100000 (![] : Fin 0 → Fin S100000.rank)
  bcast_S100000_S100000x1x1_0 : S100000.BroadcastsInDim S100000x1x1 (![0] : Fin 1 → Fin S100000x1x1.rank)
  bcast_S100000x1x1_S100000x1x64_0_1_2 : S100000x1x1.BroadcastsInDim S100000x1x64 (![0, 1, 2] : Fin 3 → Fin S100000x1x64.rank)
  concatenates_S100000x1x64_S100000x1x64_S100000x1x128_d2 : Shape.Concatenates [S100000x1x64, S100000x1x64] S100000x1x128 2
  bcast_S1x1x64_S100000x1x64_0_1_2 : S1x1x64.BroadcastsInDim S100000x1x64 (![0, 1, 2] : Fin 3 → Fin S100000x1x64.rank)
  gather_S100000x1x64_S1250000x1_S1250000x1x64_12_0_n_n_0_1_1164_wf : GatherDims.WF S100000x1x64 S1250000x1 S1250000x1x64 [1, 2] [0] [] [0] [] 1 ![1, 1, 64]
  dot_S1250000x1x128_S64x128_S1250000x1x64_2_1_01_0_n_n_wf : DotDims.WF S1250000x1x128 S64x128 S1250000x1x64 [2] [1] [0, 1] [0] [] []
  scatter_S100000x1x64_S1250000x1_S1250000x1x64_12_0_0_1_wf : ScatterDims.WF S100000x1x64 S1250000x1 S1250000x1x64 [1, 2] [0] [0] 1
  scatter_S100000_S1250000x1_S1250000_n_0_0_1_wf : ScatterDims.WF S100000 S1250000x1 S1250000 [] [0] [0] 1
  dot_S100000x1x128_S64x128_S100000x1x64_2_1_01_0_n_n_wf : DotDims.WF S100000x1x128 S64x128 S100000x1x64 [2] [1] [0, 1] [0] [] []

variable [Facts₀]

def gather_S100000x1x64_S1250000x1_S1250000x1x64_12_0_n_n_0_1_1164 : GatherDims S100000x1x64 S1250000x1 S1250000x1x64 where
  offsetDims := [1, 2]
  collapsedSliceDims := [0]
  operandBatchingDims := []
  startIndicesBatchingDims := []
  startIndexMap := [0]
  indexVectorDim := 1
  sliceSizes := ![1, 1, 64]
  wf := gather_S100000x1x64_S1250000x1_S1250000x1x64_12_0_n_n_0_1_1164_wf
def dot_S1250000x1x128_S64x128_S1250000x1x64_2_1_01_0_n_n : DotDims S1250000x1x128 S64x128 S1250000x1x64 where
  lhsContracting := [2]
  rhsContracting := [1]
  lhsNonContracting := [0, 1]
  rhsNonContracting := [0]
  lhsBatch := []
  rhsBatch := []
  wf := dot_S1250000x1x128_S64x128_S1250000x1x64_2_1_01_0_n_n_wf
def scatter_S100000x1x64_S1250000x1_S1250000x1x64_12_0_0_1 : ScatterDims S100000x1x64 S1250000x1 S1250000x1x64 where
  updateWindowDims := [1, 2]
  insertedWindowDims := [0]
  scatterDimsToOperandDims := [0]
  indexVectorDim := 1
  wf := scatter_S100000x1x64_S1250000x1_S1250000x1x64_12_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x1x128_S64x128_S100000x1x64_2_1_01_0_n_n : DotDims S100000x1x128 S64x128 S100000x1x64 where
  lhsContracting := [2]
  rhsContracting := [1]
  lhsNonContracting := [0, 1]
  rhsNonContracting := [0]
  lhsBatch := []
  rhsBatch := []
  wf := dot_S100000x1x128_S64x128_S100000x1x64_2_1_01_0_n_n_wf

class Facts : Prop extends Facts₀ where

variable [Facts]
-- ==== Proof.KRun.lean ====
/-
  The idealized kernel's run with its result named. The program is two kernel regions among three stretches of host
  operations; the buffer contents at the segment boundaries are a fold through the program (`Gen.W0` … `Gen.W5`), and
  every weakly fair execution ends with every unscoped buffer of a core at the last boundary's contents. Read at the
  result buffer this names the result; read at the arguments it says they end as launched.
-/
import proofs.«156237_j5617817224169_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents `Gen.W5` and every argument array as launched. -/
theorem run : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.Linear.lean ====
/-
  One linear stage: every row of a matrix times a weight matrix, plus a bias row.

  For `x : [M, K]`, `w : [K, N]` and a bias row `b : [1, N]`, entry `(r, c)` of the stage is
  `(∑ h, x (r, h) · w (h, c)) + b (0, c)`, and the rectified stage is the larger of that and `0`.
  Both kernel bodies of the program are such a stage on one block of rows: a matrix product into a zero accumulator,
  the bias row broadcast over the rows and added (and, in the second body, the maximum with zero).
-/
import Idealize.ShloMosaic.Lib.ValueIdx
import Idealize.ShloMosaic.Lib.ValueLayout
import Idealize.ShloMosaic.Lib.Pipeline.Value
import Idealize.ShloMosaic.PureOps.Ideal.Laws
import proofs.«156237_j5617817224169_1_alg».proof.Proof.LibMatProduct

noncomputable section

namespace Sage

open Idealize.ShloMosaic Idealize.ShloMosaic.ValueIdx

/-- The linear stage `x · w + b`, entry by entry. -/
def lin {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => (∑ h : Fin K, x (ix2 (j 0) h) * w (ix2 h (j 1))) + b (ix2 (0 : Fin 1) (j 1))

/-- The rectified linear stage `max (x · w + b) 0`, entry by entry. -/
def linRelu {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => max (lin x w b j) (Ideal.ofBits .f32 0x00000000#32)

theorem lin_apply {M K N : ℕ} (x : (⟨2, ![M, K]⟩ : Shape).Idx → EReal) (w : (⟨2, ![K, N]⟩ : Shape).Idx → EReal)
    (b : (⟨2, ![1, N]⟩ : Shape).Idx → EReal) (r : Fin M) (c : Fin N) :
    lin x w b (ix2 r c) = (∑ h : Fin K, x (ix2 r h) * w (ix2 h c)) + b (ix2 (0 : Fin 1) c) := rfl

theorem linRelu_apply {M K N : ℕ} (x : (⟨2, ![M, K]⟩ : Shape).Idx → EReal) (w : (⟨2, ![K, N]⟩ : Shape).Idx → EReal)
    (b : (⟨2, ![1, N]⟩ : Shape).Idx → EReal) (r : Fin M) (c : Fin N) :
    linRelu x w b (ix2 r c)
      = max ((∑ h : Fin K, x (ix2 r h) * w (ix2 h c)) + b (ix2 (0 : Fin 1) c)) (Ideal.ofBits .f32 0x00000000#32) := rfl

/-- A body's arithmetic at an entry: the product into a zero accumulator plus the broadcast bias row is the linear
    stage of the loaded blocks. -/
theorem body_lin {M K N : ℕ} {φ₁ φ₂ : FTy}
    (d : DotDims ⟨2, ![M, K]⟩ ⟨2, ![K, N]⟩ ⟨2, ![M, N]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (x : FVec Ideal ⟨2, ![M, K]⟩ φ₁) (w : FVec Ideal ⟨2, ![K, N]⟩ φ₂) (b : FVec Ideal ⟨2, ![1, N]⟩ .f32)
    (r : Fin M) (c : Fin N) :
    addf (matmul d prec (shapeCast ⟨2, ![M, K]⟩ x hx) (shapeCast ⟨2, ![K, N]⟩ w hw)
        (constant ⟨2, ![M, N]⟩ .f32 0x00000000#32))
      (broadcastTo ⟨2, ![M, N]⟩ (shapeCast ⟨2, ![1, N]⟩ b hb) hbc) (ix2 r c)
      = lin x w b (ix2 r c) := by
  rw [shapeCast_self, shapeCast_self, shapeCast_self, addf_apply, lin_apply]
  refine congrArg₂ (· + ·) ?_ ?_
  · exact Cert.LibMatProduct.matmul_zero_apply d prec hlc hrc hln hrn hlb hrb x w r c
  · exact broadcastTo_1b_ab_apply b hbc r c

end Sage

end
-- ==== Proof.Regions.lean ====
/-
  What each kernel region leaves in its output array, as one function of the arrays the region finds.

  Region 0 walks the 1250000 rows of its first operand in 50 blocks of 25000 rows, region 1 the 100000 rows of its first
  operand in 5 blocks of 20000 rows; the weight matrix and the bias row are whole at every point. Block `t` of the
  output is the linear stage (the rectified one in region 1) of block `t` of the rows, so the blocks, which tile the
  output, assemble to the linear stage of the whole operand.
-/
import proofs.«156237_j5617817224169_1_alg».proof.Proof.Gen.KernelIdeal.Frame
import proofs.«156237_j5617817224169_1_alg».proof.Proof.Linear

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Sage

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The first body's arithmetic at an entry is the linear stage of its loaded blocks. -/
theorem pay0_apply (x0 : Vec Ideal S25000x128 .bf16) (x1 : Vec Ideal S128x64 .bf16) (x2 : Vec Ideal S1x64 .f32)
    (p : Fin 25000) (q : Fin 64) : k0_pay1 x0 x1 x2 (ix2 p q) = lin x0 x1 x2 (ix2 p q) := by
  unfold k0_pay1
  exact body_lin dot_S25000x128_S128x64_S25000x64_1_0_0_1_n_n none rfl rfl rfl rfl rfl rfl _ _ _ _ x0 x1 x2 p q

/-- The block indices over the grid: the rows' and the output's block is the point's, the weights' and the bias's is the
    whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the linear stage of the arrays the region finds. -/
theorem flushed0_eq (c : Dev nD) (t : Fin cfg0.N) :
    (dat0 V c).flushed 3 t = ((cfg0.win 3).blk t).view.read (Elt Ideal)
      (lin (M := 1250000) (K := 128) (N := 64) (V c main_v10) (V c main_v12) (V c main_v13)) := by
  show (cfg0.win 3).cut (grid0.coords t) ((dat0 V c).after 3 t) = _
  rw [after0_3]
  unfold out0_3
  rw [View.canon_unit_zero hz]
  simp only [View.ld_unit_zero (S := S25000x128) hz, View.ld_unit_zero (S := S128x64) hz, View.ld_unit_zero (S := S1x64) hz]
  obtain ⟨e0, e1, e2, e3, e4, e5, e6, e7⟩ := idx_facts0 t
  have hN : t.val < 50 := by have := t.isLt; have h50 : cfg0.N = 50 := N_0; omega
  funext j
  obtain ⟨p, q, rfl⟩ : ∃ (p : Fin 25000) (q : Fin 64), j = ix2 p q := ⟨j 0, j 1, eq_ix2 j⟩
  refine (pay0_apply _ _ _ p q).trans ?_
  have hemb : ((cfg0.win 3).blk t).view.emb (ix2 p q) = (ix2 (⟨t.val * 25000 + p.val, by omega⟩ : Fin 1250000) q : S1250000x64.Idx) := by
    funext a; apply Fin.ext
    match a with
    | ⟨0, _⟩ => show win0_3.index t (0 : Fin 2) * 25000 + 1 * p.val = t.val * 25000 + p.val; omega
    | ⟨1, _⟩ => show win0_3.index t (1 : Fin 2) * 64 + 1 * q.val = q.val; omega
  show _ = lin (M := 1250000) (K := 128) (N := 64) (V c main_v10) (V c main_v12) (V c main_v13) (((cfg0.win 3).blk t).view.emb (ix2 p q))
  rw [hemb, lin_apply, lin_apply]
  refine congrArg₂ (· + ·) (Finset.sum_congr rfl fun h _ => congrArg₂ (· * ·) ?_ ?_) ?_
  · show V c main_v10 (((cfg0.win 0).blk t).view.emb (ix2 p h)) = V c main_v10 (ix2 (⟨t.val * 25000 + p.val, by omega⟩ : Fin 1250000) h)
    refine congrArg (V c main_v10) (funext fun a => Fin.ext ?_)
    match a with
    | ⟨0, _⟩ => show win0_0.index t (0 : Fin 2) * 25000 + 1 * p.val = t.val * 25000 + p.val; omega
    | ⟨1, _⟩ => show win0_0.index t (1 : Fin 2) * 128 + 1 * h.val = h.val; omega
  · show V c main_v12 (((cfg0.win 1).blk t).view.emb (ix2 h q)) = V c main_v12 (ix2 h q)
    refine congrArg (V c main_v12) (funext fun a => Fin.ext ?_)
    match a with
    | ⟨0, _⟩ => show win0_1.index t (0 : Fin 2) * 128 + 1 * h.val = h.val; omega
    | ⟨1, _⟩ => show win0_1.index t (1 : Fin 2) * 64 + 1 * q.val = q.val; omega
  · show V c main_v13 (((cfg0.win 2).blk t).view.emb (ix2 (0 : Fin 1) q)) = V c main_v13 (ix2 (0 : Fin 1) q)
    refine congrArg (V c main_v13) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega

/-- An index of the output array is in point `t`'s block iff each coordinate is in the block's range on its axis. -/
theorem mem_blk0 (t : Fin cfg0.N) (i : S1250000x64.Idx) :
    i ∈ ((cfg0.win 3).blk t).view.set ↔ ∀ a : Fin 2, win0_3.index t a * S25000x64.size a ≤ (i a).val
      ∧ (i a).val < win0_3.index t a * S25000x64.size a + S25000x64.size a := by
  show i ∈ ((View.whole main_v14).slice (win0_3.rect t)).set ↔ _
  rw [View.set_slice_whole, Rect.mem_set_unit]
  exact Iff.rfl

/-- Row `r` of the output is in the block of point `r / 25000`: the blocks tile the array. -/
theorem cover0 (i : S1250000x64.Idx) :
    ∃ t : Fin cfg0.N, (cfg0.win 3).flush t = true ∧ i ∈ ((cfg0.win 3).blk t).view.set := by
  have hi0 : (i 0).val < 1250000 := (i 0).isLt
  have hi1 : (i 1).val < 64 := (i 1).isLt
  have h50 : cfg0.N = 50 := N_0
  obtain ⟨t, ht⟩ : ∃ t : Fin cfg0.N, t.val = (i 0).val / 25000 := ⟨⟨(i 0).val / 25000, by rw [h50]; omega⟩, rfl⟩
  obtain ⟨e0, e1, e2, e3, e4, e5, e6, e7⟩ := idx_facts0 t
  refine ⟨t, flush0_3 t, ?_⟩
  rw [mem_blk0]
  intro a
  match a with
  | ⟨0, _⟩ =>
    show win0_3.index t (0 : Fin 2) * 25000 ≤ (i 0).val ∧ (i 0).val < win0_3.index t (0 : Fin 2) * 25000 + 25000
    omega
  | ⟨1, _⟩ =>
    show win0_3.index t (1 : Fin 2) * 64 ≤ (i 1).val ∧ (i 1).val < win0_3.index t (1 : Fin 2) * 64 + 64
    omega

/-- Region 0 leaves in its output array the linear stage of the arrays it finds. -/
theorem final0 (c : Dev nD) :
    (dat0 V c).arrAt 3 cfg0.N = lin (M := 1250000) (K := 128) (N := 64) (V c main_v10) (V c main_v12) (V c main_v13) :=
  (dat0 V c).arrAt_eq_of_cover 3 _ (fun t _ => flushed0_eq V c t) cover0

/-! ## Region 1 -/

/-- The second body's arithmetic at an entry is the rectified linear stage of its loaded blocks. -/
theorem pay1_apply (x0 : Vec Ideal S20000x128 .bf16) (x1 : Vec Ideal S128x64 .bf16) (x2 : Vec Ideal S1x64 .f32)
    (p : Fin 20000) (q : Fin 64) : k1_pay1 x0 x1 x2 (ix2 p q) = linRelu x0 x1 x2 (ix2 p q) := by
  unfold k1_pay1
  show max _ _ = max _ _
  refine congrArg₂ max ?_ rfl
  exact body_lin dot_S20000x128_S128x64_S20000x64_1_0_0_1_n_n none rfl rfl rfl rfl rfl rfl _ _ _ _ x0 x1 x2 p q

/-- The block indices over the grid: the rows' and the output's block is the point's, the weights' and the bias's is the
    whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the rectified linear stage of the arrays the region finds. -/
theorem flushed1_eq (c : Dev nD) (t : Fin cfg1.N) :
    (dat1 V c).flushed 3 t = ((cfg1.win 3).blk t).view.read (Elt Ideal)
      (linRelu (M := 100000) (K := 128) (N := 64) (V c main_v28) (V c main_v30) (V c main_v31)) := by
  show (cfg1.win 3).cut (grid1.coords t) ((dat1 V c).after 3 t) = _
  rw [after1_3]
  unfold out1_3
  rw [View.canon_unit_zero hz]
  simp only [View.ld_unit_zero (S := S20000x128) hz, View.ld_unit_zero (S := S128x64) hz, View.ld_unit_zero (S := S1x64) hz]
  obtain ⟨e0, e1, e2, e3, e4, e5, e6, e7⟩ := idx_facts1 t
  have hN : t.val < 5 := by have := t.isLt; have h5 : cfg1.N = 5 := N_1; omega
  funext j
  obtain ⟨p, q, rfl⟩ : ∃ (p : Fin 20000) (q : Fin 64), j = ix2 p q := ⟨j 0, j 1, eq_ix2 j⟩
  refine (pay1_apply _ _ _ p q).trans ?_
  have hemb : ((cfg1.win 3).blk t).view.emb (ix2 p q) = (ix2 (⟨t.val * 20000 + p.val, by omega⟩ : Fin 100000) q : S100000x64.Idx) := by
    funext a; apply Fin.ext
    match a with
    | ⟨0, _⟩ => show win1_3.index t (0 : Fin 2) * 20000 + 1 * p.val = t.val * 20000 + p.val; omega
    | ⟨1, _⟩ => show win1_3.index t (1 : Fin 2) * 64 + 1 * q.val = q.val; omega
  show _ = linRelu (M := 100000) (K := 128) (N := 64) (V c main_v28) (V c main_v30) (V c main_v31) (((cfg1.win 3).blk t).view.emb (ix2 p q))
  rw [hemb, linRelu_apply, linRelu_apply]
  refine congrArg₂ max (congrArg₂ (· + ·) (Finset.sum_congr rfl fun h _ => congrArg₂ (· * ·) ?_ ?_) ?_) rfl
  · show V c main_v28 (((cfg1.win 0).blk t).view.emb (ix2 p h)) = V c main_v28 (ix2 (⟨t.val * 20000 + p.val, by omega⟩ : Fin 100000) h)
    refine congrArg (V c main_v28) (funext fun a => Fin.ext ?_)
    match a with
    | ⟨0, _⟩ => show win1_0.index t (0 : Fin 2) * 20000 + 1 * p.val = t.val * 20000 + p.val; omega
    | ⟨1, _⟩ => show win1_0.index t (1 : Fin 2) * 128 + 1 * h.val = h.val; omega
  · show V c main_v30 (((cfg1.win 1).blk t).view.emb (ix2 h q)) = V c main_v30 (ix2 h q)
    refine congrArg (V c main_v30) (funext fun a => Fin.ext ?_)
    match a with
    | ⟨0, _⟩ => show win1_1.index t (0 : Fin 2) * 128 + 1 * h.val = h.val; omega
    | ⟨1, _⟩ => show win1_1.index t (1 : Fin 2) * 64 + 1 * q.val = q.val; omega
  · show V c main_v31 (((cfg1.win 2).blk t).view.emb (ix2 (0 : Fin 1) q)) = V c main_v31 (ix2 (0 : Fin 1) q)
    refine congrArg (V c main_v31) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S20000x64.size a ≤ (i a).val
      ∧ (i a).val < win1_3.index t a * S20000x64.size a + S20000x64.size a := by
  show i ∈ ((View.whole main_v32).slice (win1_3.rect t)).set ↔ _
  rw [View.set_slice_whole, Rect.mem_set_unit]
  exact Iff.rfl

/-- Row `r` of the output is in the block of point `r / 20000`: the blocks tile the array. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have h5 : cfg1.N = 5 := N_1
  obtain ⟨t, ht⟩ : ∃ t : Fin cfg1.N, t.val = (i 0).val / 20000 := ⟨⟨(i 0).val / 20000, by rw [h5]; omega⟩, rfl⟩
  obtain ⟨e0, e1, e2, e3, e4, e5, e6, e7⟩ := idx_facts1 t
  refine ⟨t, flush1_3 t, ?_⟩
  rw [mem_blk1]
  intro a
  match a with
  | ⟨0, _⟩ =>
    show win1_3.index t (0 : Fin 2) * 20000 ≤ (i 0).val ∧ (i 0).val < win1_3.index t (0 : Fin 2) * 20000 + 20000
    omega
  | ⟨1, _⟩ =>
    show win1_3.index t (1 : Fin 2) * 64 ≤ (i 1).val ∧ (i 1).val < win1_3.index t (1 : Fin 2) * 64 + 64
    omega

/-- Region 1 leaves in its output array the rectified linear stage of the arrays it finds. -/
theorem final1 (c : Dev nD) :
    (dat1 V c).arrAt 3 cfg1.N = linRelu (M := 100000) (K := 128) (N := 64) (V c main_v28) (V c main_v30) (V c main_v31) :=
  (dat1 V c).arrAt_eq_of_cover 3 _ (fun t _ => flushed1_eq V c t) cover1

end Cert.KernelIdeal.RegionValue

end
-- ==== Proof.Spec.lean ====
/-
  The layer as one function of its inputs, entry by entry.

  Node features `nf : [100000, 1, 64]`, edge features `ef : [1250000, 1, 64]`, a source word and a destination word per
  edge, two weight matrices `[64, 128]` and two bias vectors `[64]`.
  * The input of edge `e` is the 128-vector made of the features of the node its source word names (read signed and
    clamped into the table) followed by the edge's own features.
  * The message of edge `e` is that vector through the first linear map: `∑ k, input k · Wm (o, k) + bm o`.
  * The sum at node `n` adds, to zero, the messages of the edges whose destination word read signed is `n`.
  * The input of node `n` is its own features followed by that sum divided by the node's divisor `cnt n`.
  * The result at `(n, o)` is the larger of `∑ k, input k · Wa (o, k) + ba o` and zero.
  The per-edge source words, the per-edge destination words and the per-node divisors are parameters: both programs
  compute them by the same operations from the index inputs, so they are never opened.
-/
import Idealize.ShloMosaic.Lib.ValueIdx
import Idealize.ShloMosaic.PureOps.Ideal

noncomputable section

namespace Sage

open Idealize.ShloMosaic Idealize.ShloMosaic.ValueIdx

/-- The float word zero at the ideal values. -/
def zero : EReal := Ideal.ofBits .f32 0x00000000#32

/-- The table row a start word names: read signed, clamped into `[0, 99999]`. -/
def rowOf (w : BitVec 32) : Fin 100000 := ⟨min w.toInt.toNat (100000 - 1), by omega⟩

/-- Edge `e`'s input vector: its source node's features, then its own. -/
def edgeIn (nf : (⟨3, ![100000, 1, 64]⟩ : Shape).Idx → EReal) (ef : (⟨3, ![1250000, 1, 64]⟩ : Shape).Idx → EReal)
    (srcw : Fin 1250000 → BitVec 32) (e : Fin 1250000) (k : Fin 128) : EReal :=
  if hk : k.val < 64 then nf (ix3 (rowOf (srcw e)) (0 : Fin 1) (⟨k.val, hk⟩ : Fin 64))
  else ef (ix3 e (0 : Fin 1) (⟨k.val - 64, by omega⟩ : Fin 64))

/-- Edge `e`'s message at output feature `o`. -/
def msg (nf : (⟨3, ![100000, 1, 64]⟩ : Shape).Idx → EReal) (ef : (⟨3, ![1250000, 1, 64]⟩ : Shape).Idx → EReal)
    (srcw : Fin 1250000 → BitVec 32) (Wm : (⟨2, ![64, 128]⟩ : Shape).Idx → EReal) (bm : (⟨1, ![64]⟩ : Shape).Idx → EReal)
    (e : Fin 1250000) (o : Fin 64) : EReal :=
  (∑ k : Fin 128, edgeIn nf ef srcw e k * Wm (ix2 o k)) + bm (ix1 o)

/-- The sum of the messages sent to node `n`, at output feature `o`. -/
def msum (nf : (⟨3, ![100000, 1, 64]⟩ : Shape).Idx → EReal) (ef : (⟨3, ![1250000, 1, 64]⟩ : Shape).Idx → EReal)
    (srcw dstw : Fin 1250000 → BitVec 32) (Wm : (⟨2, ![64, 128]⟩ : Shape).Idx → EReal) (bm : (⟨1, ![64]⟩ : Shape).Idx → EReal)
    (n : Fin 100000) (o : Fin 64) : EReal :=
  zero + ∑ e ∈ Finset.univ.filter (fun e : Fin 1250000 => (dstw e).toInt = (n.val : Int)), msg nf ef srcw Wm bm e o

/-- Node `n`'s input vector: its own features, then the sum of the messages sent to it divided by the node's divisor. -/
def nodeIn (nf : (⟨3, ![100000, 1, 64]⟩ : Shape).Idx → EReal) (ef : (⟨3, ![1250000, 1, 64]⟩ : Shape).Idx → EReal)
    (srcw dstw : Fin 1250000 → BitVec 32) (cnt : Fin 100000 → EReal)
    (Wm : (⟨2, ![64, 128]⟩ : Shape).Idx → EReal) (bm : (⟨1, ![64]⟩ : Shape).Idx → EReal)
    (n : Fin 100000) (k : Fin 128) : EReal :=
  if hk : k.val < 64 then nf (ix3 n (0 : Fin 1) (⟨k.val, hk⟩ : Fin 64))
  else Ideal.div (msum nf ef srcw dstw Wm bm n (⟨k.val - 64, by omega⟩ : Fin 64)) (cnt n)

/-- The layer's result at node `n`, output feature `o`. -/
def out (nf : (⟨3, ![100000, 1, 64]⟩ : Shape).Idx → EReal) (ef : (⟨3, ![1250000, 1, 64]⟩ : Shape).Idx → EReal)
    (srcw dstw : Fin 1250000 → BitVec 32) (cnt : Fin 100000 → EReal)
    (Wm : (⟨2, ![64, 128]⟩ : Shape).Idx → EReal) (bm : (⟨1, ![64]⟩ : Shape).Idx → EReal)
    (Wa : (⟨2, ![64, 128]⟩ : Shape).Idx → EReal) (ba : (⟨1, ![64]⟩ : Shape).Idx → EReal)
    (n : Fin 100000) (o : Fin 64) : EReal :=
  max ((∑ k : Fin 128, nodeIn nf ef srcw dstw cnt Wm bm n k * Wa (ix2 o k)) + ba (ix1 o)) zero

end Sage

end
-- ==== Proof.LibGatherRowsFlat.lean ====
/-
  `stablehlo.gather` of whole rows of a table by one row index per result row, read at an index.

  What `table[idx]` on the leading axis of a table lowers to: every result row `e` is the table's row at the start
  index `idx[e, 0]`, read as a signed integer and clamped into `[0, N − 1]`. Two layouts of the same read are given:
  a table `[N, D]` gathered into `[E, D]`, and a table `[N, 1, D]` gathered into `[E, 1, D]`. The row index term is
  literally the same in both, so the two layouts can be equated through it.
-/
import Idealize.ShloMosaic.Lib.ValueIdx
import Idealize.ShloMosaic.PureOps.Ideal

noncomputable section

namespace SageLib

open Idealize.ShloMosaic Idealize.ShloMosaic.ValueIdx

/-! ## Rows of a rank-2 table -/

/-- The dimension numbers of a row gather from a table `[N, D]` by start indices `[E, 1]` into a result `[E, D]`:
    the row axis is collapsed and indexed, the column axis is the one offset axis, kept whole. -/
abbrev rowGatherDims2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index that result row `e` of the rank-2 row gather reads its one start component at is `[e, 0]`. -/
theorem rowGatherDims2_siIdx {N E D : Nat}
    (wf : GatherDims.WF ⟨2, ![N, D]⟩ ⟨2, ![E, 1]⟩ ⟨2, ![E, D]⟩ [1] [0] [] [0] [] 1 ![1, D])
    (e : Fin E) (c : Fin D) (k : Fin (rowGatherDims2 N E D wf).startIndexMap.length) :
    (rowGatherDims2 N E D wf).siIdx (ix2 e c) k = ix2 e (0 : Fin 1) := by
  funext b; refine Fin.ext ?_
  match b with
  | ⟨0, _⟩ => rfl
  | ⟨1, _⟩ =>
    have hk : k.val < 1 := k.isLt
    show k.val = 0
    omega

/-- THE RANK-2 ROW GATHER READ AT `(e, c)`: the table at row `idx[e, 0]` (read signed, clamped into `[0, N − 1]`)
    and column `c`. -/
theorem gather_rows2 {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims2 N E D wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGatherDims2 N E D wf).start (ix2 e c) idx 0 + (rowGatherDims2 N E D wf).batchCoord (ix2 e c) 0
      + (rowGatherDims2 N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims2 N E D wf).startIndexMap from List.mem_singleton.mpr rfl)]
    rw [rowGatherDims2_siIdx]
    rfl
  | ⟨1, _⟩ =>
    show (rowGatherDims2 N E D wf).start (ix2 e c) idx 1 + (rowGatherDims2 N E D wf).batchCoord (ix2 e c) 1
      + (rowGatherDims2 N E D wf).offCoord (ix2 e c) 1 = c.val
    rw [GatherDims.batchCoord_eq_zero _ _ _ List.not_mem_nil]
    have hs : (rowGatherDims2 N E D wf).start (ix2 e c) idx 1 = 0 := by
      unfold GatherDims.start
      rw [dif_neg (show (1 : Fin 2) ∉ ([0] : List (Fin 2)) by decide)]
    have hk : (1 : Fin 2) ∈ (rowGatherDims2 N E D wf).sKept :=
      (GatherDims.mem_sKept _ _).mpr ⟨(show (1 : Fin 2) ∉ ([0] : List (Fin 2)) by decide), List.not_mem_nil⟩
    have ho : (rowGatherDims2 N E D wf).offCoord (ix2 e c) 1 = c.val := by
      unfold GatherDims.offCoord
      rw [dif_pos hk]
      rfl
    rw [hs, ho]
    omega

/-! ## Rows of a rank-3 table with a unit middle axis -/

/-- The dimension numbers of a row gather from a table `[N, 1, D]` by start indices `[E, 1]` into a result
    `[E, 1, D]`: the row axis is collapsed and indexed, the other two axes are the offset axes, kept whole. -/
abbrev rowGatherDims3 (N E D : Nat)
    (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- The start-indices index that result row `e` of the rank-3 row gather reads its one start component at is `[e, 0]`. -/
theorem rowGatherDims3_siIdx {N E D : Nat}
    (wf : GatherDims.WF ⟨3, ![N, 1, D]⟩ ⟨2, ![E, 1]⟩ ⟨3, ![E, 1, D]⟩ [1, 2] [0] [] [0] [] 1 ![1, 1, D])
    (e : Fin E) (m : Fin 1) (c : Fin D) (k : Fin (rowGatherDims3 N E D wf).startIndexMap.length) :
    (rowGatherDims3 N E D wf).siIdx (ix3 e m c) k = ix2 e (0 : Fin 1) := by
  funext b; refine Fin.ext ?_
  match b with
  | ⟨0, _⟩ => rfl
  | ⟨1, _⟩ =>
    have hk : k.val < 1 := k.isLt
    show k.val = 0
    omega

/-- THE RANK-3 ROW GATHER READ AT `(e, 0, c)`: the table at row `idx[e, 0]` (read signed, clamped into
    `[0, N − 1]`), middle coordinate `0` and column `c`. -/
theorem gather_rows3 {α : Type} {N E D w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (c : Fin D) :
    Host.gather (rowGatherDims3 N E D wf) x idx (ix3 e (0 : Fin 1) c)
      = x (ix3 ⟨min (idx (ix2 e (0 : Fin 1))).toInt.toNat (N - 1), by omega⟩ (0 : Fin 1) c) := by
  unfold Host.gather
  congr 1
  funext a
  refine Fin.ext ?_
  match a with
  | ⟨0, _⟩ =>
    show (rowGatherDims3 N E D wf).start (ix3 e (0 : Fin 1) c) idx 0
      + (rowGatherDims3 N E D wf).batchCoord (ix3 e (0 : Fin 1) c) 0
      + (rowGatherDims3 N E D wf).offCoord (ix3 e (0 : Fin 1) c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGatherDims3 N E D wf).startIndexMap from List.mem_singleton.mpr rfl)]
    rw [rowGatherDims3_siIdx]
    rfl
  | ⟨1, _⟩ =>
    show (rowGatherDims3 N E D wf).start (ix3 e (0 : Fin 1) c) idx 1
      + (rowGatherDims3 N E D wf).batchCoord (ix3 e (0 : Fin 1) c) 1
      + (rowGatherDims3 N E D wf).offCoord (ix3 e (0 : Fin 1) c) 1 = 0
    rw [GatherDims.batchCoord_eq_zero _ _ _ List.not_mem_nil]
    have hs : (rowGatherDims3 N E D wf).start (ix3 e (0 : Fin 1) c) idx 1 = 0 := by
      unfold GatherDims.start
      rw [dif_neg (show (1 : Fin 3) ∉ ([0] : List (Fin 3)) by decide)]
    have hk : (1 : Fin 3) ∈ (rowGatherDims3 N E D wf).sKept :=
      (GatherDims.mem_sKept _ _).mpr ⟨(show (1 : Fin 3) ∉ ([0] : List (Fin 3)) by decide), List.not_mem_nil⟩
    have ho : (rowGatherDims3 N E D wf).offCoord (ix3 e (0 : Fin 1) c) 1 = 0 := by
      unfold GatherDims.offCoord
      rw [dif_pos hk]
      rfl
    rw [hs, ho]
  | ⟨2, _⟩ =>
    show (rowGatherDims3 N E D wf).start (ix3 e (0 : Fin 1) c) idx 2
      + (rowGatherDims3 N E D wf).batchCoord (ix3 e (0 : Fin 1) c) 2
      + (rowGatherDims3 N E D wf).offCoord (ix3 e (0 : Fin 1) c) 2 = c.val
    rw [GatherDims.batchCoord_eq_zero _ _ _ List.not_mem_nil]
    have hs : (rowGatherDims3 N E D wf).start (ix3 e (0 : Fin 1) c) idx 2 = 0 := by
      unfold GatherDims.start
      rw [dif_neg (show (2 : Fin 3) ∉ ([0] : List (Fin 3)) by decide)]
    have hk : (2 : Fin 3) ∈ (rowGatherDims3 N E D wf).sKept :=
      (GatherDims.mem_sKept _ _).mpr ⟨(show (2 : Fin 3) ∉ ([0] : List (Fin 3)) by decide), List.not_mem_nil⟩
    have ho : (rowGatherDims3 N E D wf).offCoord (ix3 e (0 : Fin 1) c) 2 = c.val := by
      unfold GatherDims.offCoord
      rw [dif_pos hk]
      rfl
    rw [hs, ho]
    omega

end SageLib

end
-- ==== Proof.LibConcatSqueeze.lean ====
/-
  A two-piece concatenation along the LAST axis read at an index, and a reshape that drops or inserts a middle unit
  axis read at an index.

  A concatenation of `[A, D1]` and `[A, D2]` along the last axis reads, at `(a, k)`, the first piece at `(a, k)` when
  `k < D1` and the second piece at `(a, k − D1)` otherwise; the same with a unit middle axis, `[A, 1, D1]` and
  `[A, 1, D2]`. A reshape between `[A, 1, D]` and `[A, D]` keeps every element at its coordinates `(a, d)`, the middle
  coordinate being `0`: both indices have row-major position `a · D + d`.
-/
import Idealize.ShloMosaic.Lib.ValueIdx
import Idealize.ShloMosaic.Lib.Pipeline.Value

noncomputable section

namespace SageLib

open Idealize.ShloMosaic Idealize.ShloMosaic.ValueIdx

/-! ## Two pieces along the last axis of a rank-2 array -/

/-- A concatenation of `[A, D1]` and `[A, D2]` along the last axis reads, at a column `k` below `D1`, the first piece
    at the same row and column. -/
theorem concat2_left {α : Type} {A D1 D2 D : ℕ}
    (h : Shape.Concatenates [⟨2, ![A, D1]⟩, ⟨2, ![A, D2]⟩] ⟨2, ![A, D]⟩ 1)
    (x₁ : (⟨2, ![A, D1]⟩ : Shape).Idx → α) (x₂ : (⟨2, ![A, D2]⟩ : Shape).Idx → α) (a : Fin A) (k : Fin D)
    (hk : k.val < D1) :
    concatenate ⟨2, ![A, D]⟩ 1 [⟨⟨2, ![A, D1]⟩, x₁⟩, ⟨⟨2, ![A, D2]⟩, x₂⟩] h (ix2 a k) = x₁ (ix2 a ⟨k.val, hk⟩) :=
  concatenate_pair_apply_left (t := ⟨2, ![A, D]⟩) (s₁ := ⟨2, ![A, D1]⟩) (s₂ := ⟨2, ![A, D2]⟩) 1 x₁ x₂ h (ix2 a k) rfl
    (ix2 a ⟨k.val, hk⟩) (fun b => match b with
      | ⟨0, _⟩ => rfl
      | ⟨1, _⟩ => rfl)

/-- A concatenation of `[A, D1]` and `[A, D2]` along the last axis reads, at a column `k` at or past `D1`, the second
    piece at the same row and column `k − D1`. -/
theorem concat2_right {α : Type} {A D1 D2 D : ℕ}
    (h : Shape.Concatenates [⟨2, ![A, D1]⟩, ⟨2, ![A, D2]⟩] ⟨2, ![A, D]⟩ 1)
    (x₁ : (⟨2, ![A, D1]⟩ : Shape).Idx → α) (x₂ : (⟨2, ![A, D2]⟩ : Shape).Idx → α) (a : Fin A) (k : Fin D)
    (hk : D1 ≤ k.val) (hk2 : k.val - D1 < D2) :
    concatenate ⟨2, ![A, D]⟩ 1 [⟨⟨2, ![A, D1]⟩, x₁⟩, ⟨⟨2, ![A, D2]⟩, x₂⟩] h (ix2 a k)
      = x₂ (ix2 a ⟨k.val - D1, hk2⟩) :=
  concatenate_pair_apply_right (t := ⟨2, ![A, D]⟩) (s₁ := ⟨2, ![A, D1]⟩) (s₂ := ⟨2, ![A, D2]⟩) 1 x₁ x₂ h (ix2 a k) rfl rfl
    (ix2 a ⟨k.val - D1, hk2⟩)
    (fun b => match b with
      | ⟨0, _⟩ => fun _ => rfl
      | ⟨1, _⟩ => fun hne => absurd rfl hne)
    (by show k.val - D1 + D1 = k.val; omega)

/-! ## Two pieces along the last axis of a rank-3 array with a unit middle axis -/

/-- A concatenation of `[A, 1, D1]` and `[A, 1, D2]` along the last axis reads, at a last coordinate `k` below `D1`, the
    first piece at the same coordinates. -/
theorem concat3_left {α : Type} {A D1 D2 D : ℕ}
    (h : Shape.Concatenates [⟨3, ![A, 1, D1]⟩, ⟨3, ![A, 1, D2]⟩] ⟨3, ![A, 1, D]⟩ 2)
    (x₁ : (⟨3, ![A, 1, D1]⟩ : Shape).Idx → α) (x₂ : (⟨3, ![A, 1, D2]⟩ : Shape).Idx → α) (a : Fin A) (k : Fin D)
    (hk : k.val < D1) :
    concatenate ⟨3, ![A, 1, D]⟩ 2 [⟨⟨3, ![A, 1, D1]⟩, x₁⟩, ⟨⟨3, ![A, 1, D2]⟩, x₂⟩] h (ix3 a (0 : Fin 1) k)
      = x₁ (ix3 a (0 : Fin 1) ⟨k.val, hk⟩) :=
  concatenate_pair_apply_left (t := ⟨3, ![A, 1, D]⟩) (s₁ := ⟨3, ![A, 1, D1]⟩) (s₂ := ⟨3, ![A, 1, D2]⟩) 2 x₁ x₂ h
    (ix3 a (0 : Fin 1) k) rfl (ix3 a (0 : Fin 1) ⟨k.val, hk⟩) (fun b => match b with
      | ⟨0, _⟩ => rfl
      | ⟨1, _⟩ => rfl
      | ⟨2, _⟩ => rfl)

/-- A concatenation of `[A, 1, D1]` and `[A, 1, D2]` along the last axis reads, at a last coordinate `k` at or past
    `D1`, the second piece at the same coordinates but `k − D1` on the last axis. -/
theorem concat3_right {α : Type} {A D1 D2 D : ℕ}
    (h : Shape.Concatenates [⟨3, ![A, 1, D1]⟩, ⟨3, ![A, 1, D2]⟩] ⟨3, ![A, 1, D]⟩ 2)
    (x₁ : (⟨3, ![A, 1, D1]⟩ : Shape).Idx → α) (x₂ : (⟨3, ![A, 1, D2]⟩ : Shape).Idx → α) (a : Fin A) (k : Fin D)
    (hk : D1 ≤ k.val) (hk2 : k.val - D1 < D2) :
    concatenate ⟨3, ![A, 1, D]⟩ 2 [⟨⟨3, ![A, 1, D1]⟩, x₁⟩, ⟨⟨3, ![A, 1, D2]⟩, x₂⟩] h (ix3 a (0 : Fin 1) k)
      = x₂ (ix3 a (0 : Fin 1) ⟨k.val - D1, hk2⟩) :=
  concatenate_pair_apply_right (t := ⟨3, ![A, 1, D]⟩) (s₁ := ⟨3, ![A, 1, D1]⟩) (s₂ := ⟨3, ![A, 1, D2]⟩) 2 x₁ x₂ h
    (ix3 a (0 : Fin 1) k) rfl rfl (ix3 a (0 : Fin 1) ⟨k.val - D1, hk2⟩)
    (fun b => match b with
      | ⟨0, _⟩ => fun _ => rfl
      | ⟨1, _⟩ => fun _ => rfl
      | ⟨2, _⟩ => fun hne => absurd rfl hne)
    (by show k.val - D1 + D1 = k.val; omega)

/-! ## Dropping and inserting a middle unit axis -/

/-- An `[A, 1, D]` array reshaped to `[A, D]` reads, at `(a, d)`, the operand at `(a, 0, d)`. -/
theorem squeeze_apply {α : Type} {A D : ℕ} (x : (⟨3, ![A, 1, D]⟩ : Shape).Idx → α)
    (h : (⟨3, ![A, 1, D]⟩ : Shape).ShapeCasts ⟨2, ![A, D]⟩) (a : Fin A) (d : Fin D) :
    shapeCast ⟨2, ![A, D]⟩ x h (ix2 a d) = x (ix3 a (0 : Fin 1) d) :=
  shapeCast_apply x h _ _ (by
    rw [Shape.rowMajor_val_three, Shape.rowMajor_val_two]
    show (a.val * 1 + 0) * D + d.val = a.val * D + d.val
    rw [Nat.mul_one, Nat.add_zero])

/-- An `[A, D]` array reshaped to `[A, 1, D]` reads, at `(a, 0, d)`, the operand at `(a, d)`. -/
theorem unsqueeze_apply {α : Type} {A D : ℕ} (y : (⟨2, ![A, D]⟩ : Shape).Idx → α)
    (h : (⟨2, ![A, D]⟩ : Shape).ShapeCasts ⟨3, ![A, 1, D]⟩) (a : Fin A) (d : Fin D) :
    shapeCast ⟨3, ![A, 1, D]⟩ y h (ix3 a (0 : Fin 1) d) = y (ix2 a d) :=
  shapeCast_apply y h _ _ (by
    rw [Shape.rowMajor_val_two, Shape.rowMajor_val_three]
    show a.val * D + d.val = (a.val * 1 + 0) * D + d.val
    rw [Nat.mul_one, Nat.add_zero])

end SageLib

end
-- ==== Proof.LibScatterRows.lean ====
/-
  Scattering whole rows with an add body, read at one element.

  A scatter-add whose every update row carries one row index (the segment sum of rows) gives, at
  element (n, o) of the operand, the operand's element plus the sum over the update rows e whose
  index word, read as a signed integer, equals n, of element o of row e. An update row whose index
  is negative or at least the number of operand rows lands outside the operand and contributes
  nothing. Two layouts of the same statement: operand [N, D] with updates [E, D], and operand
  [N, 1, D] with updates [E, 1, D]; the indices are [E, 1] in both.
-/
import Idealize.ShloMosaic.Lib.ValueIdx
import Idealize.ShloMosaic.PureOps.Ideal

noncomputable section

open scoped BigOperators

namespace SageLib

open Idealize.ShloMosaic Idealize.ShloMosaic.ValueIdx

/-! ## Operand [N, D], indices [E, 1], updates [E, D] -/

/-- The dimension numbers of a row scatter into an operand [N, D]: update window axis 1, inserted
    window axis 0, the one index component addressing operand axis 0, index vectors along axis 1. -/
abbrev rowScatterDims2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows2
variable {N E D w : Nat} (wf : ScatterDims.WF ⟨2, ![N, D]⟩ ⟨2, ![E, 1]⟩ ⟨2, ![E, D]⟩ [1] [0] [0] 1)

/-- On operand axis 0 the window of update element (e, o') starts at the index word of row e, read signed. -/
theorem rows2_start0 (e : Fin E) (o' : Fin D) (idx : IVec ⟨2, ![E, 1]⟩ w) :
    (rowScatterDims2 N E D wf).start (ix2 e o') idx 0 = (idx (ix2 e (0 : Fin 1))).toInt := by
  unfold ScatterDims.start
  rw [dif_pos (show (0 : Fin 2) ∈ (rowScatterDims2 N E D wf).scatterDimsToOperandDims from List.mem_singleton.mpr rfl)]
  have hsi : (rowScatterDims2 N E D wf).siIdx (ix2 e o')
      ⟨List.idxOf (0 : Fin 2) (rowScatterDims2 N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1 the window starts at 0. -/
theorem rows2_start1 (j : (⟨2, ![E, D]⟩ : Shape).Idx) (idx : IVec ⟨2, ![E, 1]⟩ w) :
    (rowScatterDims2 N E D wf).start j idx 1 = 0 := by
  unfold ScatterDims.start
  rw [dif_neg (show ¬ (1 : Fin 2) ∈ (rowScatterDims2 N E D wf).scatterDimsToOperandDims from
    fun h => absurd (List.mem_singleton.1 h) (show ¬ (1 : Fin 2) = 0 by decide))]

/-- The operand's axes that are not inserted: axis 1 alone. -/
theorem rows2_sKept : (rowScatterDims2 N E D wf).sKept = [1] := rfl

/-- On operand axis 0, the inserted one, the window coordinate is 0. -/
theorem rows2_window0 (j : (⟨2, ![E, D]⟩ : Shape).Idx) :
    (rowScatterDims2 N E D wf).window j 0 = 0 := by
  unfold ScatterDims.window
  rw [dif_neg (show ¬ (0 : Fin 2) ∈ (rowScatterDims2 N E D wf).sKept from
    fun h => absurd (List.mem_singleton.1 ((rows2_sKept wf) ▸ h)) (show ¬ (0 : Fin 2) = 1 by decide))]

/-- On operand axis 1 the window coordinate of update element (e, o') is o'. -/
theorem rows2_window1 (e : Fin E) (o' : Fin D) :
    (rowScatterDims2 N E D wf).window (ix2 e o') 1 = o'.val := by
  unfold ScatterDims.window
  rw [dif_pos (show (1 : Fin 2) ∈ (rowScatterDims2 N E D wf).sKept from (rows2_sKept wf) ▸ List.mem_singleton.2 rfl)]
  rfl

/-- Update element (e, o') lands on operand element (n, o) exactly when the index word of row e, read
    signed, is n and o' = o. -/
theorem rows2_resultIdx_iff (e : Fin E) (o' : Fin D) (idx : IVec ⟨2, ![E, 1]⟩ w) (n : Fin N) (o : Fin D) :
    (rowScatterDims2 N E D wf).resultIdx? (ix2 e o') idx = some (ix2 n o)
      ↔ (idx (ix2 e (0 : Fin 1))).toInt = (n.val : Int) ∧ o' = o := by
  have h0 : (rowScatterDims2 N E D wf).start (ix2 e o') idx 0 + ((rowScatterDims2 N E D wf).window (ix2 e o') 0 : Int)
      = (idx (ix2 e (0 : Fin 1))).toInt := by
    rw [rows2_start0, rows2_window0]; simp
  have h1 : (rowScatterDims2 N E D wf).start (ix2 e o') idx 1 + ((rowScatterDims2 N E D wf).window (ix2 e o') 1 : Int)
      = (o'.val : Int) := by
    rw [rows2_start1, rows2_window1]; simp
  unfold ScatterDims.resultIdx?
  constructor
  · intro h
    split at h
    · rename_i hin
      have hf := Option.some.inj h
      have e0 := congrArg (fun f => (f 0).val) hf
      have e1 := congrArg (fun f => (f 1).val) hf
      simp only at e0 e1
      have hin0 := hin 0
      rw [h0] at e0 hin0
      rw [h1] at e1
      refine ⟨?_, Fin.ext ?_⟩
      · have : ((idx (ix2 e (0 : Fin 1))).toInt.toNat : Int) = (n.val : Int) := by exact_mod_cast e0
        omega
      · have : ((o'.val : Int).toNat) = o.val := e1
        omega
    · exact absurd h (by simp)
  · rintro ⟨hn, rfl⟩
    have hin : ∀ a, 0 ≤ (rowScatterDims2 N E D wf).start (ix2 e o') idx a + (rowScatterDims2 N E D wf).window (ix2 e o') a ∧
        (rowScatterDims2 N E D wf).start (ix2 e o') idx a + (rowScatterDims2 N E D wf).window (ix2 e o') a
          < (⟨2, ![N, D]⟩ : Shape).size a := by
      intro a
      match a with
      | ⟨0, _⟩ =>
        show 0 ≤ (rowScatterDims2 N E D wf).start (ix2 e o') idx 0 + ((rowScatterDims2 N E D wf).window (ix2 e o') 0 : Int) ∧
          (rowScatterDims2 N E D wf).start (ix2 e o') idx 0 + ((rowScatterDims2 N E D wf).window (ix2 e o') 0 : Int) < ((N : Nat) : Int)
        have := n.isLt
        rw [h0, hn]; omega
      | ⟨1, _⟩ =>
        show 0 ≤ (rowScatterDims2 N E D wf).start (ix2 e o') idx 1 + ((rowScatterDims2 N E D wf).window (ix2 e o') 1 : Int) ∧
          (rowScatterDims2 N E D wf).start (ix2 e o') idx 1 + ((rowScatterDims2 N E D wf).window (ix2 e o') 1 : Int) < ((D : Nat) : Int)
        have := o'.isLt
        rw [h1]; omega
    rw [dif_pos hin]
    congr 1
    funext a
    refine Fin.ext ?_
    match a with
    | ⟨0, _⟩ =>
      show ((rowScatterDims2 N E D wf).start (ix2 e o') idx 0 + ((rowScatterDims2 N E D wf).window (ix2 e o') 0 : Int)).toNat = n.val
      rw [h0, hn]; simp
    | ⟨1, _⟩ =>
      show ((rowScatterDims2 N E D wf).start (ix2 e o') idx 1 + ((rowScatterDims2 N E D wf).window (ix2 e o') 1 : Int)).toNat = o'.val
      rw [h1]; simp

/-- SCATTER-ADD OF ROWS READ AT (n, o), operand [N, D]: the operand's element plus the sum, over the update rows
    e whose index word read signed is n, of element o of row e. -/
theorem scatterAdd_rows2 (x : (⟨2, ![N, D]⟩ : Shape).Idx → EReal) (idx : IVec ⟨2, ![E, 1]⟩ w)
    (upd : (⟨2, ![E, D]⟩ : Shape).Idx → EReal) (n : Fin N) (o : Fin D) :
    Ideal.hostScatterAdd (rowScatterDims2 N E D wf) x idx upd (ix2 n o)
      = x (ix2 n o) + ∑ e ∈ Finset.univ.filter (fun e : Fin E => (idx (ix2 e (0 : Fin 1))).toInt = (n.val : Int)),
          upd (ix2 e o) := by
  unfold Ideal.hostScatterAdd
  congr 1
  refine Finset.sum_nbij' (fun j : (⟨2, ![E, D]⟩ : Shape).Idx => (⟨(j 0).val, idx2_lt0 j⟩ : Fin E))
    (fun e : Fin E => (ix2 e o : (⟨2, ![E, D]⟩ : Shape).Idx)) ?_ ?_ ?_ ?_ ?_
  · intro j hj
    obtain ⟨a, b, rfl⟩ : ∃ (a : Fin E) (b : Fin D), j = ix2 a b := ⟨j 0, j 1, eq_ix2 j⟩
    exact Finset.mem_filter.2 ⟨Finset.mem_univ _,
      ((rows2_resultIdx_iff wf a b idx n o).1 (Finset.mem_filter.1 hj).2).1⟩
  · intro e he
    exact Finset.mem_filter.2 ⟨Finset.mem_univ _,
      (rows2_resultIdx_iff wf e o idx n o).2 ⟨(Finset.mem_filter.1 he).2, rfl⟩⟩
  · intro j hj
    obtain ⟨a, b, rfl⟩ : ∃ (a : Fin E) (b : Fin D), j = ix2 a b := ⟨j 0, j 1, eq_ix2 j⟩
    obtain ⟨_, rfl⟩ := (rows2_resultIdx_iff wf a b idx n o).1 (Finset.mem_filter.1 hj).2
    rfl
  · intro e _
    rfl
  · intro j hj
    obtain ⟨a, b, rfl⟩ : ∃ (a : Fin E) (b : Fin D), j = ix2 a b := ⟨j 0, j 1, eq_ix2 j⟩
    obtain ⟨_, rfl⟩ := (rows2_resultIdx_iff wf a b idx n o).1 (Finset.mem_filter.1 hj).2
    rfl

end Rows2

/-! ## Operand [N, 1, D], indices [E, 1], updates [E, 1, D] -/

/-- The dimension numbers of a row scatter into an operand [N, 1, D]: update window axes 1 and 2, inserted
    window axis 0, the one index component addressing operand axis 0, index vectors along axis 1. -/
abbrev rowScatterDims3 (N E D : Nat)
    (wf : ScatterDims.WF ⟨3, ![N, 1, D]⟩ ⟨2, ![E, 1]⟩ ⟨3, ![E, 1, D]⟩ [1, 2] [0] [0] 1) :
    ScatterDims ⟨3, ![N, 1, D]⟩ ⟨2, ![E, 1]⟩ ⟨3, ![E, 1, D]⟩ where
  updateWindowDims := [1, 2]
  insertedWindowDims := [0]
  scatterDimsToOperandDims := [0]
  indexVectorDim := 1
  wf := wf

section Rows3
variable {N E D w : Nat} (wf : ScatterDims.WF ⟨3, ![N, 1, D]⟩ ⟨2, ![E, 1]⟩ ⟨3, ![E, 1, D]⟩ [1, 2] [0] [0] 1)

/-- On operand axis 0 the window of update element (e, m, o') starts at the index word of row e, read signed. -/
theorem rows3_start0 (e : Fin E) (m : Fin 1) (o' : Fin D) (idx : IVec ⟨2, ![E, 1]⟩ w) :
    (rowScatterDims3 N E D wf).start (ix3 e m o') idx 0 = (idx (ix2 e (0 : Fin 1))).toInt := by
  unfold ScatterDims.start
  rw [dif_pos (show (0 : Fin 3) ∈ (rowScatterDims3 N E D wf).scatterDimsToOperandDims from List.mem_singleton.mpr rfl)]
  have hsi : (rowScatterDims3 N E D wf).siIdx (ix3 e m o')
      ⟨List.idxOf (0 : Fin 3) (rowScatterDims3 N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1 the window starts at 0. -/
theorem rows3_start1 (j : (⟨3, ![E, 1, D]⟩ : Shape).Idx) (idx : IVec ⟨2, ![E, 1]⟩ w) :
    (rowScatterDims3 N E D wf).start j idx 1 = 0 := by
  unfold ScatterDims.start
  rw [dif_neg (show ¬ (1 : Fin 3) ∈ (rowScatterDims3 N E D wf).scatterDimsToOperandDims from
    fun h => absurd (List.mem_singleton.1 h) (show ¬ (1 : Fin 3) = 0 by decide))]

/-- On operand axis 2 the window starts at 0. -/
theorem rows3_start2 (j : (⟨3, ![E, 1, D]⟩ : Shape).Idx) (idx : IVec ⟨2, ![E, 1]⟩ w) :
    (rowScatterDims3 N E D wf).start j idx 2 = 0 := by
  unfold ScatterDims.start
  rw [dif_neg (show ¬ (2 : Fin 3) ∈ (rowScatterDims3 N E D wf).scatterDimsToOperandDims from
    fun h => absurd (List.mem_singleton.1 h) (show ¬ (2 : Fin 3) = 0 by decide))]

/-- On operand axis 0, the inserted one, the window coordinate is 0. -/
theorem rows3_window0 (j : (⟨3, ![E, 1, D]⟩ : Shape).Idx) :
    (rowScatterDims3 N E D wf).window j 0 = 0 := by
  unfold ScatterDims.window
  rw [dif_neg (show ¬ (0 : Fin 3) ∈ (rowScatterDims3 N E D wf).sKept from
    (show ¬ (0 : Fin 3) ∈ ([1, 2] : List (Fin 3)) by decide))]

/-- On operand axis 1 the window coordinate of update element (e, m, o') is m. -/
theorem rows3_window1 (e : Fin E) (m : Fin 1) (o' : Fin D) :
    (rowScatterDims3 N E D wf).window (ix3 e m o') 1 = m.val := by
  unfold ScatterDims.window
  rw [dif_pos (show (1 : Fin 3) ∈ (rowScatterDims3 N E D wf).sKept from
    (show (1 : Fin 3) ∈ ([1, 2] : List (Fin 3)) by decide))]
  rfl

/-- On operand axis 2 the window coordinate of update element (e, m, o') is o'. -/
theorem rows3_window2 (e : Fin E) (m : Fin 1) (o' : Fin D) :
    (rowScatterDims3 N E D wf).window (ix3 e m o') 2 = o'.val := by
  unfold ScatterDims.window
  rw [dif_pos (show (2 : Fin 3) ∈ (rowScatterDims3 N E D wf).sKept from
    (show (2 : Fin 3) ∈ ([1, 2] : List (Fin 3)) by decide))]
  rfl

/-- Update element (e, 0, o') lands on operand element (n, 0, o) exactly when the index word of row e, read
    signed, is n and o' = o. -/
theorem rows3_resultIdx_iff (e : Fin E) (o' : Fin D) (idx : IVec ⟨2, ![E, 1]⟩ w) (n : Fin N) (o : Fin D) :
    (rowScatterDims3 N E D wf).resultIdx? (ix3 e (0 : Fin 1) o') idx = some (ix3 n (0 : Fin 1) o)
      ↔ (idx (ix2 e (0 : Fin 1))).toInt = (n.val : Int) ∧ o' = o := by
  have h0 : (rowScatterDims3 N E D wf).start (ix3 e (0 : Fin 1) o') idx 0 + ((rowScatterDims3 N E D wf).window (ix3 e (0 : Fin 1) o') 0 : Int)
      = (idx (ix2 e (0 : Fin 1))).toInt := by
    rw [rows3_start0, rows3_window0]; simp
  have h1 : (rowScatterDims3 N E D wf).start (ix3 e (0 : Fin 1) o') idx 1 + ((rowScatterDims3 N E D wf).window (ix3 e (0 : Fin 1) o') 1 : Int) = 0 := by
    rw [rows3_start1, rows3_window1]; simp
  have h2 : (rowScatterDims3 N E D wf).start (ix3 e (0 : Fin 1) o') idx 2 + ((rowScatterDims3 N E D wf).window (ix3 e (0 : Fin 1) o') 2 : Int)
      = (o'.val : Int) := by
    rw [rows3_start2, rows3_window2]; simp
  unfold ScatterDims.resultIdx?
  constructor
  · intro h
    split at h
    · rename_i hin
      have hf := Option.some.inj h
      have e0 := congrArg (fun f => (f 0).val) hf
      have e2 := congrArg (fun f => (f 2).val) hf
      simp only at e0 e2
      have hin0 := hin 0
      rw [h0] at e0 hin0
      rw [h2] at e2
      refine ⟨?_, Fin.ext ?_⟩
      · have : ((idx (ix2 e (0 : Fin 1))).toInt.toNat : Int) = (n.val : Int) := by exact_mod_cast e0
        omega
      · have : ((o'.val : Int).toNat) = o.val := e2
        omega
    · exact absurd h (by simp)
  · rintro ⟨hn, rfl⟩
    have hin : ∀ a, 0 ≤ (rowScatterDims3 N E D wf).start (ix3 e (0 : Fin 1) o') idx a + (rowScatterDims3 N E D wf).window (ix3 e (0 : Fin 1) o') a ∧
        (rowScatterDims3 N E D wf).start (ix3 e (0 : Fin 1) o') idx a + (rowScatterDims3 N E D wf).window (ix3 e (0 : Fin 1) o') a
          < (⟨3, ![N, 1, D]⟩ : Shape).size a := by
      intro a
      match a with
      | ⟨0, _⟩ =>
        show 0 ≤ (rowScatterDims3 N E D wf).start (ix3 e (0 : Fin 1) o') idx 0 + ((rowScatterDims3 N E D wf).window (ix3 e (0 : Fin 1) o') 0 : Int) ∧
          (rowScatterDims3 N E D wf).start (ix3 e (0 : Fin 1) o') idx 0 + ((rowScatterDims3 N E D wf).window (ix3 e (0 : Fin 1) o') 0 : Int) < ((N : Nat) : Int)
        have := n.isLt
        rw [h0, hn]; omega
      | ⟨1, _⟩ =>
        show 0 ≤ (rowScatterDims3 N E D wf).start (ix3 e (0 : Fin 1) o') idx 1 + ((rowScatterDims3 N E D wf).window (ix3 e (0 : Fin 1) o') 1 : Int) ∧
          (rowScatterDims3 N E D wf).start (ix3 e (0 : Fin 1) o') idx 1 + ((rowScatterDims3 N E D wf).window (ix3 e (0 : Fin 1) o') 1 : Int) < ((1 : Nat) : Int)
        rw [h1]; omega
      | ⟨2, _⟩ =>
        show 0 ≤ (rowScatterDims3 N E D wf).start (ix3 e (0 : Fin 1) o') idx 2 + ((rowScatterDims3 N E D wf).window (ix3 e (0 : Fin 1) o') 2 : Int) ∧
          (rowScatterDims3 N E D wf).start (ix3 e (0 : Fin 1) o') idx 2 + ((rowScatterDims3 N E D wf).window (ix3 e (0 : Fin 1) o') 2 : Int) < ((D : Nat) : Int)
        have := o'.isLt
        rw [h2]; omega
    rw [dif_pos hin]
    congr 1
    funext a
    refine Fin.ext ?_
    match a with
    | ⟨0, _⟩ =>
      show ((rowScatterDims3 N E D wf).start (ix3 e (0 : Fin 1) o') idx 0 + ((rowScatterDims3 N E D wf).window (ix3 e (0 : Fin 1) o') 0 : Int)).toNat = n.val
      rw [h0, hn]; simp
    | ⟨1, _⟩ =>
      show ((rowScatterDims3 N E D wf).start (ix3 e (0 : Fin 1) o') idx 1 + ((rowScatterDims3 N E D wf).window (ix3 e (0 : Fin 1) o') 1 : Int)).toNat = 0
      rw [h1]; simp
    | ⟨2, _⟩ =>
      show ((rowScatterDims3 N E D wf).start (ix3 e (0 : Fin 1) o') idx 2 + ((rowScatterDims3 N E D wf).window (ix3 e (0 : Fin 1) o') 2 : Int)).toNat = o'.val
      rw [h2]; simp

/-- SCATTER-ADD OF ROWS READ AT (n, 0, o), operand [N, 1, D]: the operand's element plus the sum, over the update
    rows e whose index word read signed is n, of element (0, o) of row e. -/
theorem scatterAdd_rows3 (x : (⟨3, ![N, 1, D]⟩ : Shape).Idx → EReal) (idx : IVec ⟨2, ![E, 1]⟩ w)
    (upd : (⟨3, ![E, 1, D]⟩ : Shape).Idx → EReal) (n : Fin N) (o : Fin D) :
    Ideal.hostScatterAdd (rowScatterDims3 N E D wf) x idx upd (ix3 n (0 : Fin 1) o)
      = x (ix3 n (0 : Fin 1) o) + ∑ e ∈ Finset.univ.filter (fun e : Fin E => (idx (ix2 e (0 : Fin 1))).toInt = (n.val : Int)),
          upd (ix3 e (0 : Fin 1) o) := by
  unfold Ideal.hostScatterAdd
  congr 1
  refine Finset.sum_nbij' (fun j : (⟨3, ![E, 1, D]⟩ : Shape).Idx => (⟨(j 0).val, (j 0).isLt⟩ : Fin E))
    (fun e : Fin E => (ix3 e (0 : Fin 1) o : (⟨3, ![E, 1, D]⟩ : Shape).Idx)) ?_ ?_ ?_ ?_ ?_
  · intro j hj
    obtain ⟨a, m, b, rfl⟩ : ∃ (a : Fin E) (m : Fin 1) (b : Fin D), j = ix3 a m b := ⟨j 0, j 1, j 2, eq_ix3 j⟩
    obtain rfl : m = 0 := Subsingleton.elim _ _
    exact Finset.mem_filter.2 ⟨Finset.mem_univ _,
      ((rows3_resultIdx_iff wf a b idx n o).1 (Finset.mem_filter.1 hj).2).1⟩
  · intro e he
    exact Finset.mem_filter.2 ⟨Finset.mem_univ _,
      (rows3_resultIdx_iff wf e o idx n o).2 ⟨(Finset.mem_filter.1 he).2, rfl⟩⟩
  · intro j hj
    obtain ⟨a, m, b, rfl⟩ : ∃ (a : Fin E) (m : Fin 1) (b : Fin D), j = ix3 a m b := ⟨j 0, j 1, j 2, eq_ix3 j⟩
    obtain rfl : m = 0 := Subsingleton.elim _ _
    obtain ⟨_, rfl⟩ := (rows3_resultIdx_iff wf a b idx n o).1 (Finset.mem_filter.1 hj).2
    rfl
  · intro e _
    rfl
  · intro j hj
    obtain ⟨a, m, b, rfl⟩ : ∃ (a : Fin E) (m : Fin 1) (b : Fin D), j = ix3 a m b := ⟨j 0, j 1, j 2, eq_ix3 j⟩
    obtain rfl : m = 0 := Subsingleton.elim _ _
    obtain ⟨_, rfl⟩ := (rows3_resultIdx_iff wf a b idx n o).1 (Finset.mem_filter.1 hj).2
    rfl

end Rows3

end SageLib

end
-- ==== Proof.HostK.lean ====
/-
  What each stretch of host operations leaves in the buffers the next segment reads, at an index, at the ideal
  values: the edge inputs (source node's features, then the edge's own), the transposed weights and the bias rows that
  enter the first region; the node inputs (own features, then the scattered sum divided by the per-node divisor), the
  transposed weights and the bias row that enter the second region; and the result with its unit middle axis restored.
-/
import proofs.«156237_j5617817224169_1_alg».proof.Proof.Gen.KernelIdeal.Frame
import proofs.«156237_j5617817224169_1_alg».proof.Proof.Spec
import proofs.«156237_j5617817224169_1_alg».proof.Proof.LibGatherRowsFlat
import proofs.«156237_j5617817224169_1_alg».proof.Proof.LibConcatSqueeze
import proofs.«156237_j5617817224169_1_alg».proof.Proof.LibScatterRows
import Idealize.ShloMosaic.Lib.ValueLayout
set_option maxRecDepth 16384
noncomputable section
namespace Cert.KernelIdeal.HostValue
open Idealize.ShloMosaic Idealize.ShloMosaic.TcCoe Idealize.SL.Sem Idealize.ShloMosaic.ValueIdx Idealize.ShloMosaic.StableHlo
open Cert.KernelIdeal Cert.KernelIdeal.Gen
variable (m : (ℓ : Loc nD τ sig) → Buf (Elt Ideal) ℓ) (ρ : Dev nD → PrngReg)

/-- The source words after the negative-index wrap: a negative word has the number of nodes added. -/
def srcW (x2 : IVec S1250000 32) : IVec S1250000 32 :=
  select (cmpi .slt x2 (broadcastInDim S1250000 ![] bcast_S_S1250000 (constantI S_ 32 0#32)))
    (addi x2 (broadcastInDim S1250000 ![] bcast_S_S1250000 (constantI S_ 32 100000#32))) x2
/-- The per-node divisor: the number of edges sent to the node, or one if there is none. -/
def cntK (x3 : IVec S1250000 32) : FVec Ideal S100000 .f32 :=
  maximumf (Host.scatterAdd scatter_S100000_S1250000x1_S1250000_n_0_0_1 (broadcastInDim S100000 ![] bcast_S_S100000 (constant S_ .f32 0x00000000#32))
      (broadcastInDim S1250000x1 ![0] bcast_S1250000_S1250000x1_0 x3) (broadcastInDim S1250000 ![] bcast_S_S1250000 (constant S_ .f32 0x3F800000#32)))
    (broadcastInDim S100000 ![] bcast_S_S100000 (constant S_ .f32 0x3F800000#32))

/-- The first region's weight operand is the first weight matrix transposed. -/
theorem V1_v12_apply (c : Dev nD) (k : Fin 128) (o : Fin 64) :
    V1 m ρ c main_v12 (ix2 k o) = m ((c : Thread nD τ).loc main_arg4) (ix2 o k) := by
  show StableHlo.after hostOps0 (W0 m ρ c) (Proc.devRef .tc main_v12) (ix2 k o) = _
  after_results
  exact transpose_ix2_apply (W0 m ρ c (Proc.devRef .tc main_arg4)) transposes_S64x128_S128x64_1_0 k o

/-- The first region's bias operand is the first bias vector as one row. -/
theorem V1_v13_apply (c : Dev nD) (o : Fin 64) :
    V1 m ρ c main_v13 (ix2 (0 : Fin 1) o) = m ((c : Thread nD τ).loc main_arg5) (ix1 o) := by
  show StableHlo.after hostOps0 (W0 m ρ c) (Proc.devRef .tc main_v13) (ix2 (0 : Fin 1) o) = _
  after_results
  exact shapeCast_a_1a_apply (W0 m ρ c (Proc.devRef .tc main_arg5)) shapeCasts_S64_S1x64 (0 : Fin 1) o

/-- The start word of edge e in the broadcast column of source words is the wrapped source word of e. -/
theorem bcast_col_apply {w : Nat} (x : IVec S1250000 w) (e : Fin 1250000) :
    broadcastInDim S1250000x1 ![0] bcast_S1250000_S1250000x1_0 x (ix2 e (0 : Fin 1)) = x (ix1 e) :=
  broadcastInDim_apply (s := S1250000) (t := S1250000x1) ![0] bcast_S1250000_S1250000x1_0 x (ix2 e (0 : Fin 1)) (ix1 e)
    (fun a => match a with
      | ⟨0, _⟩ => by
        show e.val = if (1250000 : Nat) = 1 then 0 else e.val
        rw [if_neg (by decide)])

/-- The first region's data operand at edge e is the edge's input vector: its source node's features, then its own. -/
theorem V1_v10_apply (c : Dev nD) (e : Fin 1250000) (k : Fin 128) :
    V1 m ρ c main_v10 (ix2 e k)
      = Sage.edgeIn (m ((c : Thread nD τ).loc main_arg0)) (m ((c : Thread nD τ).loc main_arg1))
          (fun e => srcW (m ((c : Thread nD τ).loc main_arg2)) (ix1 e)) e k := by
  show StableHlo.after hostOps0 (W0 m ρ c) (Proc.devRef .tc main_v10) (ix2 e k) = _
  after_results
  refine (truncf_apply (φ := .f32) (ψ := .bf16) _ bitsLt_bf16_f32 (ix2 e k)).trans ?_
  unfold Sage.edgeIn
  by_cases hk : k.val < 64
  · rw [dif_pos hk]
    refine (SageLib.concat2_left (A := 1250000) (D1 := 64) (D2 := 64) (D := 128)
      concatenates_S1250000x64_S1250000x64_S1250000x128_d1 _ _ e k hk).trans ?_
    show Host.gather (SageLib.rowGatherDims2 100000 1250000 64 Facts₀.gather_S100000x64_S1250000x1_S1250000x64_1_0_n_n_0_1_164_wf)
      _ _ (ix2 e (⟨k.val, hk⟩ : Fin 64)) = _
    refine (SageLib.gather_rows2 (by decide) _ _ _ e (⟨k.val, hk⟩ : Fin 64)).trans ?_
    refine (SageLib.squeeze_apply (A := 100000) (D := 64) (W0 m ρ c (Proc.devRef .tc main_arg0))
      shapeCasts_S100000x1x64_S100000x64 _ (⟨k.val, hk⟩ : Fin 64)).trans ?_
    exact congrArg (fun wd : BitVec 32 => m ((c : Thread nD τ).loc main_arg0) (ix3 (Sage.rowOf wd) (0 : Fin 1) (⟨k.val, hk⟩ : Fin 64)))
      (bcast_col_apply (srcW (m ((c : Thread nD τ).loc main_arg2))) e)
  · rw [dif_neg hk]
    have hk2 : k.val - 64 < 64 := by have := k.isLt; omega
    refine (SageLib.concat2_right (A := 1250000) (D1 := 64) (D2 := 64) (D := 128)
      concatenates_S1250000x64_S1250000x64_S1250000x128_d1 _ _ e k (by omega) hk2).trans ?_
    exact SageLib.squeeze_apply (A := 1250000) (D := 64) (W0 m ρ c (Proc.devRef .tc main_arg1))
      shapeCasts_S1250000x1x64_S1250000x64 e (⟨k.val - 64, hk2⟩ : Fin 64)

/-! ## The first region leaves the arguments and the reshaped node features as it found them -/

/-- After the first region the node-feature argument is as launched. -/
theorem W2_arg0 (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results
/-- After the first region the destination-word argument is as launched. -/
theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results
/-- After the first region the second weight matrix is as launched. -/
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results
/-- After the first region the second bias vector is as launched. -/
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results
/-- After the first region the node features without their unit axis read, at (n, d), the argument at (n, 0, d). -/
theorem W2_v0_apply (c : Dev nD) (n : Fin 100000) (d : Fin 64) :
    W2 m ρ c (Proc.devRef .tc main_v0) (ix2 n d) = m ((c : Thread nD τ).loc main_arg0) (ix3 n (0 : Fin 1) d) := by
  refine (congrFun (W2_of_ne m ρ c main_v0 (by decide)) (ix2 n d)).trans ?_
  show StableHlo.after hostOps0 (W0 m ρ c) (Proc.devRef .tc main_v0) (ix2 n d) = _
  after_results
  exact SageLib.squeeze_apply (A := 100000) (D := 64) (W0 m ρ c (Proc.devRef .tc main_arg0))
    shapeCasts_S100000x1x64_S100000x64 n d

/-- The second region's weight operand is the second weight matrix transposed. -/
theorem V3_v30_apply (c : Dev nD) (k : Fin 128) (o : Fin 64) :
    V3 m ρ c main_v30 (ix2 k o) = m ((c : Thread nD τ).loc main_arg6) (ix2 o k) := by
  show StableHlo.after hostOps1 (W2 m ρ c) (Proc.devRef .tc main_v30) (ix2 k o) = _
  after_results
  refine (transpose_ix2_apply (W2 m ρ c (Proc.devRef .tc main_arg6)) transposes_S64x128_S128x64_1_0 k o).trans ?_
  exact congrFun (W2_arg6 m ρ c) (ix2 o k)

/-- The second region's bias operand is the second bias vector as one row. -/
theorem V3_v31_apply (c : Dev nD) (o : Fin 64) :
    V3 m ρ c main_v31 (ix2 (0 : Fin 1) o) = m ((c : Thread nD τ).loc main_arg7) (ix1 o) := by
  show StableHlo.after hostOps1 (W2 m ρ c) (Proc.devRef .tc main_v31) (ix2 (0 : Fin 1) o) = _
  after_results
  refine (shapeCast_a_1a_apply (W2 m ρ c (Proc.devRef .tc main_arg7)) shapeCasts_S64_S1x64 (0 : Fin 1) o).trans ?_
  exact congrFun (W2_arg7 m ρ c) (ix1 o)

/-- The result is the second region's output array with its unit middle axis restored. -/
theorem W5_v33_apply (c : Dev nD) (n : Fin 100000) (o : Fin 64) :
    W5 m ρ c (Proc.devRef .tc main_v33) (ix3 n (0 : Fin 1) o) = (dat1 (V3 m ρ) c).arrAt 3 cfg1.N (ix2 n o) := by
  show StableHlo.after hostOps2 (W4 m ρ c) (Proc.devRef .tc main_v33) (ix3 n (0 : Fin 1) o) = _
  after_results
  refine (SageLib.unsqueeze_apply (A := 100000) (D := 64) (W4 m ρ c (Proc.devRef .tc main_v32))
    shapeCasts_S100000x64_S100000x1x64 n o).trans ?_
  exact congrFun (W4_arr m ρ c 3) (ix2 n o)

/-! ## The pieces of the second stretch -/

/-- At the ideal values the host's accumulating scatter is the exact sum. -/
theorem hostScatterAdd_eq {s si su : Shape} (d : ScatterDims s si su) {w : Nat} (x : FVec Ideal s .f32) (idx : IVec si w)
    (upd : FVec Ideal su .f32) : Host.scatterAdd d x idx upd = Ideal.hostScatterAdd d x idx upd := rfl

/-- The program's dimension numbers of its row scatter are the row scatter's. -/
theorem scatter17_rec : scatter_S100000x64_S1250000x1_S1250000x64_1_0_0_1
    = SageLib.rowScatterDims2 100000 1250000 64 scatter_S100000x64_S1250000x1_S1250000x64_1_0_0_1.wf := rfl

/-- The program's row scatter at (n, o): the operand's element plus the sum over the update rows whose index word read
    signed is n. -/
theorem scatter17_apply {w : Nat} (x : FVec Ideal S100000x64 .f32) (idx : IVec S1250000x1 w) (upd : FVec Ideal S1250000x64 .f32)
    (n : Fin 100000) (o : Fin 64) :
    Host.scatterAdd scatter_S100000x64_S1250000x1_S1250000x64_1_0_0_1 x idx upd (ix2 n o)
      = x (ix2 n o) + ∑ e ∈ Finset.univ.filter (fun e : Fin 1250000 => (idx (ix2 e (0 : Fin 1))).toInt = (n.val : Int)),
          upd (ix2 e o) := by
  refine (congrFun (hostScatterAdd_eq _ x idx upd) (ix2 n o)).trans ?_
  generalize hd : scatter_S100000x64_S1250000x1_S1250000x64_1_0_0_1 = d
  have hd' : d = SageLib.rowScatterDims2 100000 1250000 64 scatter_S100000x64_S1250000x1_S1250000x64_1_0_0_1.wf :=
    hd.symm.trans scatter17_rec
  subst hd'
  exact SageLib.scatterAdd_rows2 _ x idx upd n o

/-- A per-node vector broadcast to a column and then along the features reads, at (n, o), the vector at n. -/
theorem bcast_node_apply {α : Type} (X : S100000.Idx → α) (n : Fin 100000) (o : Fin 64) :
    broadcastInDim S100000x64 ![0, 1] bcast_S100000x1_S100000x64_0_1
      (broadcastInDim S100000x1 ![0] bcast_S100000_S100000x1_0 X) (ix2 n o) = X (ix1 n) := by
  refine (broadcastInDim_apply (s := S100000x1) (t := S100000x64) ![0, 1] bcast_S100000x1_S100000x64_0_1 _ (ix2 n o)
    (ix2 n (0 : Fin 1)) (fun a => match a with
      | ⟨0, _⟩ => by
        show n.val = if (100000 : Nat) = 1 then 0 else n.val
        rw [if_neg (by decide)]
      | ⟨1, _⟩ => by
        show (0 : Nat) = if (1 : Nat) = 1 then 0 else o.val
        rw [if_pos rfl])).trans ?_
  exact broadcastInDim_apply (s := S100000) (t := S100000x1) ![0] bcast_S100000_S100000x1_0 X (ix2 n (0 : Fin 1)) (ix1 n)
    (fun a => match a with
      | ⟨0, _⟩ => by
        show n.val = if (100000 : Nat) = 1 then 0 else n.val
        rw [if_neg (by decide)])

/-- The scattered sum at (n, o): zero plus the sum, over the edges whose destination word read signed is n, of the first
    region's output row at o. -/
theorem sum17_apply (c : Dev nD) (n : Fin 100000) (o : Fin 64) :
    Host.scatterAdd (F := Ideal) (φ := .f32) scatter_S100000x64_S1250000x1_S1250000x64_1_0_0_1
        (broadcastInDim S100000x64 ![] bcast_S_S100000x64 (constant S_ .f32 0x00000000#32))
        (broadcastInDim S1250000x1 ![0] bcast_S1250000_S1250000x1_0 (W2 m ρ c (Proc.devRef .tc main_arg3)))
        (W2 m ρ c (Proc.devRef .tc main_v14)) (ix2 n o)
      = Sage.zero + (∑ e ∈ Finset.univ.filter (fun e : Fin 1250000 =>
            (m ((c : Thread nD τ).loc main_arg3) (ix1 e)).toInt = (n.val : Int)),
          (dat0 (V1 m ρ) c).arrAt 3 cfg0.N (ix2 e o) : EReal) := by
  refine (scatter17_apply _ _ _ n o).trans ?_
  have h0 : broadcastInDim S100000x64 ![] bcast_S_S100000x64 (constant (F := Ideal) S_ .f32 0x00000000#32) (ix2 n o) = Sage.zero :=
    broadcastInDim_apply (s := S_) (t := S100000x64) ![] bcast_S_S100000x64 _ (ix2 n o) ix0 (fun a => a.elim0)
  have hidx : ∀ e : Fin 1250000,
      broadcastInDim S1250000x1 ![0] bcast_S1250000_S1250000x1_0 (W2 m ρ c (Proc.devRef .tc main_arg3)) (ix2 e (0 : Fin 1))
        = m ((c : Thread nD τ).loc main_arg3) (ix1 e) :=
    fun e => (bcast_col_apply _ e).trans (congrFun (W2_arg3 m ρ c) (ix1 e))
  have hupd : W2 m ρ c (Proc.devRef .tc main_v14) = (dat0 (V1 m ρ) c).arrAt 3 cfg0.N := W2_arr m ρ c 3
  refine congrArg₂ (fun s t : EReal => s + t) h0 ?_
  exact Finset.sum_congr (Finset.filter_congr fun e _ => by rw [hidx e]) (fun e _ => congrFun hupd (ix2 e o))

/-- The host's division at the ideal values, at an index, is the ideal division of the elements. -/
theorem hostDivf_apply {s : Shape} (A B : FVec Ideal s .f32) (i : s.Idx) : Host.divf A B i = Ideal.div (A i) (B i) := rfl

set_option maxHeartbeats 4000000 in
/-- The second region's data operand at node n is the node's input vector: its own features, then the sum of the first
    region's output rows sent to it divided by the node's divisor. -/
theorem V3_v28_apply (c : Dev nD) (n : Fin 100000) (k : Fin 128) :
    V3 m ρ c main_v28 (ix2 n k)
      = if hk : k.val < 64 then m ((c : Thread nD τ).loc main_arg0) (ix3 n (0 : Fin 1) (⟨k.val, hk⟩ : Fin 64))
        else Ideal.div (Sage.zero + (∑ e ∈ Finset.univ.filter (fun e : Fin 1250000 =>
                (m ((c : Thread nD τ).loc main_arg3) (ix1 e)).toInt = (n.val : Int)),
              (dat0 (V1 m ρ) c).arrAt 3 cfg0.N (ix2 e (⟨k.val - 64, by omega⟩ : Fin 64)) : EReal))
            (cntK (m ((c : Thread nD τ).loc main_arg3)) (ix1 n)) := by
  show StableHlo.after hostOps1 (W2 m ρ c) (Proc.devRef .tc main_v28) (ix2 n k) = _
  after_results
  refine (truncf_apply (φ := .f32) (ψ := .bf16) _ bitsLt_bf16_f32 (ix2 n k)).trans ?_
  by_cases hk : k.val < 64
  · rw [dif_pos hk]
    refine (SageLib.concat2_left (A := 100000) (D1 := 64) (D2 := 64) (D := 128)
      concatenates_S100000x64_S100000x64_S100000x128_d1 _ _ n k hk).trans ?_
    exact W2_v0_apply m ρ c n (⟨k.val, hk⟩ : Fin 64)
  · rw [dif_neg hk]
    have hk2 : k.val - 64 < 64 := by have := k.isLt; omega
    refine (SageLib.concat2_right (A := 100000) (D1 := 64) (D2 := 64) (D := 128)
      concatenates_S100000x64_S100000x64_S100000x128_d1 _ _ n k (by omega) hk2).trans ?_
    refine (hostDivf_apply _ _ (ix2 n (⟨k.val - 64, hk2⟩ : Fin 64))).trans ?_
    refine congrArg₂ Ideal.div ?_ ?_
    · exact sum17_apply m ρ c n (⟨k.val - 64, hk2⟩ : Fin 64)
    · exact (bcast_node_apply _ n (⟨k.val - 64, hk2⟩ : Fin 64)).trans
        (congrArg (fun a => cntK a (ix1 n)) (W2_arg3 m ρ c))

end Cert.KernelIdeal.HostValue
end
-- ==== Proof.KValue.lean ====
/-
  The idealized kernel's result, entry by entry, is the layer's specification.

  The result buffer is the second region's output array with a unit axis inserted; that array is the rectified linear
  stage of the node inputs, the transposed second weight matrix and the second bias row; the node inputs are the node
  features followed by the scattered sums of the first region's output divided by the node's divisor; and the first
  region's output is the linear stage of the edge inputs, the transposed first weight matrix and the first bias row.
-/
import proofs.«156237_j5617817224169_1_alg».proof.Proof.Regions
import proofs.«156237_j5617817224169_1_alg».proof.Proof.HostK

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.RegionValue Cert.KernelIdeal.HostValue Sage

variable (m : (ℓ : Loc nD τ sig) → Buf (Elt Ideal) ℓ) (ρ : Dev nD → PrngReg)

/-- The result buffer after the run, at `(n, 0, o)`, is the specification at `(n, o)` of the launch contents of the
    argument arrays. -/
theorem out_eq (c : Dev nD) (n : Fin 100000) (o : Fin 64) :
    W5 m ρ c (Proc.devRef .tc main_v33) (ix3 n (0 : Fin 1) o)
      = Sage.out (m ((c : Thread nD τ).loc main_arg0)) (m ((c : Thread nD τ).loc main_arg1))
          (fun e => srcW (m ((c : Thread nD τ).loc main_arg2)) (ix1 e))
          (fun e => m ((c : Thread nD τ).loc main_arg3) (ix1 e))
          (fun n => cntK (m ((c : Thread nD τ).loc main_arg3)) (ix1 n))
          (m ((c : Thread nD τ).loc main_arg4)) (m ((c : Thread nD τ).loc main_arg5))
          (m ((c : Thread nD τ).loc main_arg6)) (m ((c : Thread nD τ).loc main_arg7)) n o := by
  refine (W5_v33_apply m ρ c n o).trans ?_
  rw [final1 (V3 m ρ) c]
  refine (linRelu_apply _ _ _ n o).trans ?_
  unfold Sage.out
  refine congrArg₂ (max : EReal → EReal → EReal) (congrArg₂ ((· + ·) : EReal → EReal → EReal)
    (Finset.sum_congr rfl fun k _ => congrArg₂ ((· * ·) : EReal → EReal → EReal) ?_ ?_) ?_) rfl
  · refine (V3_v28_apply m ρ c n k).trans ?_
    unfold Sage.nodeIn
    split
    · rfl
    · refine congrArg₂ Ideal.div ?_ rfl
      unfold Sage.msum
      refine congrArg (fun t : EReal => Sage.zero + t) (Finset.sum_congr rfl fun e _ => ?_)
      rw [final0 (V1 m ρ) c]
      refine (lin_apply _ _ _ e _).trans ?_
      unfold Sage.msg
      exact congrArg₂ ((· + ·) : EReal → EReal → EReal) (Finset.sum_congr rfl fun k' _ =>
        congrArg₂ ((· * ·) : EReal → EReal → EReal) (V1_v10_apply m ρ c e k') (V1_v12_apply m ρ c k' _)) (V1_v13_apply m ρ c _)
  · exact V3_v30_apply m ρ c k o
  · exact V3_v31_apply m ρ c o

end Cert.KernelIdeal.KValue

end
-- ==== Proof.RefValue.lean ====
/-
  The reference program's result, read at an index, is the layer's specification.

  Read from the inside out: the gathered source rows, each edge's 128-vector (source row, then own features), each
  edge's message (first linear map), the per-node sum of the messages (a scatter-add into zeros), the division by the
  per-node divisor, each node's 128-vector (own features, then the mean), and the second linear map followed by the
  maximum with zero. The per-edge source words and the per-node divisors are left as they are: the specification
  takes them as parameters.
-/
import proofs.«156237_j5617817224169_1_alg».proof.Proof.Gen.ReferenceIdeal.Read
import proofs.«156237_j5617817224169_1_alg».proof.Proof.Spec
import proofs.«156237_j5617817224169_1_alg».proof.Proof.LibGatherRowsFlat
import proofs.«156237_j5617817224169_1_alg».proof.Proof.LibConcatSqueeze
import proofs.«156237_j5617817224169_1_alg».proof.Proof.LibScatterRows

noncomputable section

open scoped BigOperators

namespace Cert.ReferenceIdeal.RefValue

open Cert.ReferenceIdeal Cert.ReferenceIdeal.Gen Cert.ReferenceIdeal.Read Idealize.ShloMosaic Idealize.ShloMosaic.ValueIdx

section Steps
variable (x0 : (⟨S100000x1x64, .f32⟩ : BufTy).Contents (Elt Ideal)) (x1 : (⟨S1250000x1x64, .f32⟩ : BufTy).Contents (Elt Ideal))
  (x2 x3 : (⟨S1250000, .i32⟩ : BufTy).Contents (Elt Ideal)) (x4 : (⟨S64x128, .f32⟩ : BufTy).Contents (Elt Ideal))
  (x5 : (⟨S64, .f32⟩ : BufTy).Contents (Elt Ideal)) (x6 : (⟨S64x128, .f32⟩ : BufTy).Contents (Elt Ideal))
  (x7 : (⟨S64, .f32⟩ : BufTy).Contents (Elt Ideal))

/-! ## The gathered source rows -/

/-- The start word of edge `e`, broadcast to `[E, 1]`, is read at `(e, 0)` from the flat word array at `e`. -/
theorem idx_v5 (e : Fin 1250000) : idx_main_v5 (ix2 e (0 : Fin 1)) = ix1 e := by
  funext a
  match a with
  | ⟨0, _⟩ => rfl

/-- The gathered row of edge `e` at column `c` is the node table at the row the edge's source word names. -/
theorem v6_row (e : Fin 1250000) (c : Fin 64) :
    val_main_v6 (F := Ideal) x0 x2 (ix3 e (0 : Fin 1) c)
      = x0 (ix3 (Sage.rowOf (val_main_v4 (F := Ideal) x2 (ix1 e))) (0 : Fin 1) c) := by
  unfold val_main_v6
  refine (SageLib.gather_rows3 (N := 100000) (E := 1250000) (D := 64) (by omega) gather_S100000x1x64_S1250000x1_S1250000x1x64_12_0_n_n_0_1_1164.wf x0
    (val_main_v5 (F := Ideal) x2) e c).trans ?_
  have h : val_main_v5 (F := Ideal) x2 (ix2 e (0 : Fin 1)) = val_main_v4 (F := Ideal) x2 (ix1 e) := by
    rw [val_main_v5_apply, idx_v5]
  have key : ∀ (w' w : BitVec 32) (hw : w' = w) (p : min w'.toInt.toNat (100000 - 1) < 100000),
      x0 (ix3 (⟨min w'.toInt.toNat (100000 - 1), p⟩ : Fin 100000) (0 : Fin 1) c)
        = x0 (ix3 (Sage.rowOf w) (0 : Fin 1) c) := by
    intro w' w hw p
    subst hw
    rfl
  exact key _ _ h _

/-! ## Each edge's input vector -/

/-- Edge `e`'s concatenated vector at position `k` is the specification's edge input. -/
theorem v7_edgeIn (e : Fin 1250000) (k : Fin 128) :
    val_main_v7 (F := Ideal) x0 x1 x2 (ix3 e (0 : Fin 1) k)
      = Sage.edgeIn x0 x1 (fun e => val_main_v4 (F := Ideal) x2 (ix1 e)) e k := by
  unfold val_main_v7 Sage.edgeIn
  by_cases hk : k.val < 64
  · rw [dif_pos hk]
    refine (SageLib.concat3_left (A := 1250000) (D1 := 64) (D2 := 64) (D := 128) concatenates_S1250000x1x64_S1250000x1x64_S1250000x1x128_d2
      (val_main_v6 (F := Ideal) x0 x2) x1 e k hk).trans ?_
    exact v6_row x0 x2 e ⟨k.val, hk⟩
  · rw [dif_neg hk]
    exact SageLib.concat3_right (A := 1250000) (D1 := 64) (D2 := 64) (D := 128) concatenates_S1250000x1x64_S1250000x1x64_S1250000x1x128_d2
      (val_main_v6 (F := Ideal) x0 x2) x1 e k (by omega) (by omega)

/-! ## Each edge's message -/

/-- The first product's left operand index at `(e, 0, o)` and contraction position `k` is `(e, 0, k)`. -/
theorem lidx_v8 (e : Fin 1250000) (o : Fin 64) (k : Fin 128) :
    lidx_main_v8 (ix3 e (0 : Fin 1) o) k = ix3 e (0 : Fin 1) k :=
  funext fun a => Fin.ext (by
    match a with
    | ⟨0, _⟩ => rfl
    | ⟨1, _⟩ => rfl
    | ⟨2, _⟩ => rfl)

/-- The first product's right operand index at `(e, 0, o)` and contraction position `k` is `(o, k)`. -/
theorem ridx_v8 (e : Fin 1250000) (o : Fin 64) (k : Fin 128) :
    ridx_main_v8 (ix3 e (0 : Fin 1) o) k = ix2 o k :=
  funext fun a => Fin.ext (by
    match a with
    | ⟨0, _⟩ => rfl
    | ⟨1, _⟩ => rfl)

/-- The first bias, broadcast twice, is read at `(e, 0, o)` from the bias vector at `o`. -/
theorem idx_v9_v10 (e : Fin 1250000) (o : Fin 64) :
    idx_main_v9 (idx_main_v10 (ix3 e (0 : Fin 1) o)) = ix1 o := by
  funext a
  match a with
  | ⟨0, _⟩ => rfl

/-- Edge `e`'s message at output feature `o` is the specification's message. -/
theorem v11_msg (e : Fin 1250000) (o : Fin 64) :
    val_main_v11 (F := Ideal) x0 x1 x2 x4 x5 (ix3 e (0 : Fin 1) o)
      = Sage.msg x0 x1 (fun e => val_main_v4 (F := Ideal) x2 (ix1 e)) x4 x5 e o := by
  rw [val_main_v11_apply, val_main_v8_apply, val_main_v10_apply, val_main_v9_apply, idx_v9_v10]
  unfold Sage.msg
  show (∑ k : Fin 128, _) + _ = _
  congr 1
  refine Finset.sum_congr rfl fun k _ => ?_
  rw [lidx_v8, ridx_v8, v7_edgeIn]

/-! ## The per-node sum of the messages -/

/-- The zeros the sum starts from: the broadcast constant is the specification's zero at every index. -/
theorem v12_zero (i : S100000x1x64.Idx) : val_main_v12 (F := Ideal) i = Sage.zero := by
  rw [val_main_v12_apply, val_main_cst_apply]
  rfl

/-- The destination word of edge `e`, broadcast to `[E, 1]`, is read at `(e, 0)` from the flat word array at `e`. -/
theorem v13_word (e : Fin 1250000) : val_main_v13 (F := Ideal) x3 (ix2 e (0 : Fin 1)) = x3 (ix1 e) := by
  rw [val_main_v13_apply]
  refine congrArg x3 ?_
  funext a
  match a with
  | ⟨0, _⟩ => rfl

/-- The printed scatter record is the row scatter's dimension numbers at the program's sizes. -/
theorem scatter_dims_eq :
    scatter_S100000x1x64_S1250000x1_S1250000x1x64_12_0_0_1 = SageLib.rowScatterDims3 100000 1250000 64 scatter_S100000x1x64_S1250000x1_S1250000x1x64_12_0_0_1.wf := rfl

/-- The host scatter-add with the row scatter's dimension numbers, read at `(n, 0, o)`: the operand there plus the sum of
    the update rows `e` whose index word, read signed, is `n`. -/
theorem scatter_rows (x : (⟨S100000x1x64, .f32⟩ : BufTy).Contents (Elt Ideal)) (idx : (⟨S1250000x1, .i32⟩ : BufTy).Contents (Elt Ideal))
    (upd : (⟨S1250000x1x64, .f32⟩ : BufTy).Contents (Elt Ideal)) (n : Fin 100000) (o : Fin 64) :
    Host.scatterAdd (F := Ideal) (φ := .f32) scatter_S100000x1x64_S1250000x1_S1250000x1x64_12_0_0_1 x idx upd (ix3 n (0 : Fin 1) o)
      = x (ix3 n (0 : Fin 1) o) + ∑ e ∈ Finset.univ.filter (fun e : Fin 1250000 => (idx (ix2 e (0 : Fin 1))).toInt = (n.val : Int)),
          upd (ix3 e (0 : Fin 1) o) := by
  have h1 : Host.scatterAdd (F := Ideal) (φ := .f32) scatter_S100000x1x64_S1250000x1_S1250000x1x64_12_0_0_1 x idx upd
      = Ideal.hostScatterAdd scatter_S100000x1x64_S1250000x1_S1250000x1x64_12_0_0_1 x idx upd := rfl
  rw [h1]
  generalize hd : scatter_S100000x1x64_S1250000x1_S1250000x1x64_12_0_0_1 = d
  rw [scatter_dims_eq] at hd
  subst hd
  exact SageLib.scatterAdd_rows3 (N := 100000) (E := 1250000) (D := 64) scatter_S100000x1x64_S1250000x1_S1250000x1x64_12_0_0_1.wf x idx upd n o

/-- The scatter-add at `(n, 0, o)` is the specification's sum of the messages sent to node `n`. -/
theorem v14_msum (n : Fin 100000) (o : Fin 64) :
    val_main_v14 (F := Ideal) x0 x1 x2 x3 x4 x5 (ix3 n (0 : Fin 1) o)
      = Sage.msum x0 x1 (fun e => val_main_v4 (F := Ideal) x2 (ix1 e)) (fun e => x3 (ix1 e)) x4 x5 n o := by
  unfold val_main_v14 Sage.msum
  rw [scatter_rows, v12_zero]
  refine congrArg (fun t : EReal => Sage.zero + t) ?_
  refine Finset.sum_congr (Finset.filter_congr fun e _ => ?_) (fun e _ => v11_msg x0 x1 x2 x4 x5 e o)
  rw [v13_word]

/-! ## The mean: the sum divided by the per-node divisor -/

/-- The divisor, broadcast twice, is read at `(n, 0, c)` from the per-node divisor at `n`. -/
theorem idx_v21_v22 (n : Fin 100000) (c : Fin 64) :
    idx_main_v21 (idx_main_v22 (ix3 n (0 : Fin 1) c)) = ix1 n := by
  funext a
  match a with
  | ⟨0, _⟩ => rfl

/-- The quotient at `(n, 0, c)` is the sum of the messages sent to `n` divided by `n`'s divisor. -/
theorem v23_div (n : Fin 100000) (c : Fin 64) :
    val_main_v23 (F := Ideal) x0 x1 x2 x3 x4 x5 (ix3 n (0 : Fin 1) c)
      = Ideal.div (Sage.msum x0 x1 (fun e => val_main_v4 (F := Ideal) x2 (ix1 e)) (fun e => x3 (ix1 e)) x4 x5 n c)
          (val_main_v20 (F := Ideal) x3 (ix1 n)) := by
  rw [val_main_v23_apply, val_main_v22_apply, val_main_v21_apply, idx_v21_v22, v14_msum]
  rfl

/-! ## Each node's input vector -/

/-- Node `n`'s concatenated vector at position `k` is the specification's node input. -/
theorem v24_nodeIn (n : Fin 100000) (k : Fin 128) :
    val_main_v24 (F := Ideal) x0 x1 x2 x3 x4 x5 (ix3 n (0 : Fin 1) k)
      = Sage.nodeIn x0 x1 (fun e => val_main_v4 (F := Ideal) x2 (ix1 e)) (fun e => x3 (ix1 e))
          (fun n => val_main_v20 (F := Ideal) x3 (ix1 n)) x4 x5 n k := by
  unfold val_main_v24 Sage.nodeIn
  by_cases hk : k.val < 64
  · rw [dif_pos hk]
    exact SageLib.concat3_left (A := 100000) (D1 := 64) (D2 := 64) (D := 128) concatenates_S100000x1x64_S100000x1x64_S100000x1x128_d2
      x0 (val_main_v23 (F := Ideal) x0 x1 x2 x3 x4 x5) n k hk
  · rw [dif_neg hk]
    refine (SageLib.concat3_right (A := 100000) (D1 := 64) (D2 := 64) (D := 128) concatenates_S100000x1x64_S100000x1x64_S100000x1x128_d2
      x0 (val_main_v23 (F := Ideal) x0 x1 x2 x3 x4 x5) n k (by omega) (by omega)).trans ?_
    exact v23_div x0 x1 x2 x3 x4 x5 n ⟨k.val - 64, by omega⟩

/-! ## The second linear map and the maximum with zero -/

/-- The second product's left operand index at `(n, 0, o)` and contraction position `k` is `(n, 0, k)`. -/
theorem lidx_v25 (n : Fin 100000) (o : Fin 64) (k : Fin 128) :
    lidx_main_v25 (ix3 n (0 : Fin 1) o) k = ix3 n (0 : Fin 1) k :=
  funext fun a => Fin.ext (by
    match a with
    | ⟨0, _⟩ => rfl
    | ⟨1, _⟩ => rfl
    | ⟨2, _⟩ => rfl)

/-- The second product's right operand index at `(n, 0, o)` and contraction position `k` is `(o, k)`. -/
theorem ridx_v25 (n : Fin 100000) (o : Fin 64) (k : Fin 128) :
    ridx_main_v25 (ix3 n (0 : Fin 1) o) k = ix2 o k :=
  funext fun a => Fin.ext (by
    match a with
    | ⟨0, _⟩ => rfl
    | ⟨1, _⟩ => rfl)

/-- The second bias, broadcast twice, is read at `(n, 0, o)` from the bias vector at `o`. -/
theorem idx_v26_v27 (n : Fin 100000) (o : Fin 64) :
    idx_main_v26 (idx_main_v27 (ix3 n (0 : Fin 1) o)) = ix1 o := by
  funext a
  match a with
  | ⟨0, _⟩ => rfl

/-- The zeros of the final maximum: the broadcast constant is the specification's zero at every index. -/
theorem call0_v0_zero (i : S100000x1x64.Idx) : val_main_call0_v0 (F := Ideal) i = Sage.zero := by
  rw [val_main_call0_v0_apply, val_main_call0_cst_apply]
  rfl

end Steps

/-- THE REFERENCE'S RESULT AT `(n, 0, o)` is the specification's result at node `n`, output feature `o`, with the
    per-edge source words, the per-edge destination words and the per-node divisors the program's own. -/
theorem out_eq (x0 : (⟨S100000x1x64, .f32⟩ : BufTy).Contents (Elt Ideal)) (x1 : (⟨S1250000x1x64, .f32⟩ : BufTy).Contents (Elt Ideal))
    (x2 x3 : (⟨S1250000, .i32⟩ : BufTy).Contents (Elt Ideal)) (x4 : (⟨S64x128, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal)) (n : Fin 100000) (o : Fin 64) :
    val_main_v29 (F := Ideal) x0 x1 x2 x3 x4 x5 x6 x7 (ix3 n (0 : Fin 1) o)
      = Sage.out x0 x1 (fun e => val_main_v4 (F := Ideal) x2 (ix1 e)) (fun e => x3 (ix1 e)) (fun n => val_main_v20 (F := Ideal) x3 (ix1 n)) x4 x5 x6 x7 n o := by
  rw [val_main_v29_apply, val_main_v28_apply, val_main_v25_apply, val_main_v27_apply, val_main_v26_apply,
    idx_v26_v27, call0_v0_zero]
  unfold Sage.out
  show max ((∑ k : Fin 128, _) + _) _ = _
  congr 2
  refine Finset.sum_congr rfl fun k _ => ?_
  rw [lidx_v25, ridx_v25, v24_nodeIn]

end Cert.ReferenceIdeal.RefValue

end
-- ==== Proof.lean ====
/-
  The kernel (a graph layer: per-edge linear messages, their sum per destination node divided by the clamped edge count,
  and a rectified per-node linear update, the two dense stages as tiled matrix products) against its plain reference.

  At the ideal values both programs compute, at node `n` and output feature `o`, the one function `Sage.out` of the
  inputs (Proof/Spec.lean). The kernel side is read off its run — two kernel regions, each the linear stage of the arrays
  it finds (Proof/Regions.lean), among three stretches of host operations read at an index (Proof/HostK.lean), joined in
  Proof/KValue.lean —, the reference side off its generated run, one operation at a time (Proof/RefValue.lean). The two
  differ only in layout (matrices `[rows, 64]` against `[rows, 1, 64]`) and in how a matrix product is written, so no
  law of the extended reals beyond reindexing is used and the precondition is never opened. The source words after the
  negative-index wrap and the per-node divisor are the same operations of the index inputs in both programs and are
  carried as they are. The idealization rewrote nothing, so `preserves` is trivial.
-/
import proofs.«156237_j5617817224169_1_alg».proof.Defs
import proofs.«156237_j5617817224169_1_alg».proof.Proof.Gen.Kernel
import proofs.«156237_j5617817224169_1_alg».proof.Proof.Gen.Kernel.Skeleton
import proofs.«156237_j5617817224169_1_alg».proof.Proof.Gen.Kernel.Launch
import proofs.«156237_j5617817224169_1_alg».proof.Proof.Gen.Kernel.Points
import proofs.«156237_j5617817224169_1_alg».proof.Proof.Gen.Kernel.Frame
import proofs.«156237_j5617817224169_1_alg».proof.Proof.Gen.KernelIdeal
import proofs.«156237_j5617817224169_1_alg».proof.Proof.Gen.KernelIdeal.Skeleton
import proofs.«156237_j5617817224169_1_alg».proof.Proof.Gen.KernelIdeal.Launch
import proofs.«156237_j5617817224169_1_alg».proof.Proof.Gen.KernelIdeal.Points
import proofs.«156237_j5617817224169_1_alg».proof.Proof.Gen.KernelIdeal.Frame
import proofs.«156237_j5617817224169_1_alg».proof.Proof.Gen.ReferenceIdeal
import proofs.«156237_j5617817224169_1_alg».proof.Proof.Gen.Pre_finite_inputs
import proofs.«156237_j5617817224169_1_alg».proof.Proof.Gen.ReferenceIdeal.Run
import proofs.«156237_j5617817224169_1_alg».proof.Proof.Gen.ReferenceIdeal.Read
import proofs.«156237_j5617817224169_1_alg».proof.Proof.KRun
import proofs.«156237_j5617817224169_1_alg».proof.Proof.KValue
import proofs.«156237_j5617817224169_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- Both programs wrap the source words by the same operations. -/
theorem srcW_eq (x2 : IVec Cert.KernelIdeal.S1250000 32) :
    Cert.KernelIdeal.HostValue.srcW x2 = Cert.ReferenceIdeal.Read.val_main_v4 (F := Ideal) x2 := rfl

/-- Both programs compute the per-node divisor by the same operations. -/
theorem cnt_eq (x3 : IVec Cert.KernelIdeal.S1250000 32) :
    Cert.KernelIdeal.HostValue.cntK x3 = Cert.ReferenceIdeal.Read.val_main_v20 (F := Ideal) x3 := rfl

/-- The result array both programs end with: the specification at every `(n, 0, o)`. -/
def result (a0 : (⟨3, ![100000, 1, 64]⟩ : Shape).Idx → EReal) (a1 : (⟨3, ![1250000, 1, 64]⟩ : Shape).Idx → EReal)
    (a2 a3 : IVec ⟨1, ![1250000]⟩ 32) (a4 : (⟨2, ![64, 128]⟩ : Shape).Idx → EReal) (a5 : (⟨1, ![64]⟩ : Shape).Idx → EReal)
    (a6 : (⟨2, ![64, 128]⟩ : Shape).Idx → EReal) (a7 : (⟨1, ![64]⟩ : Shape).Idx → EReal) :
    (⟨3, ![100000, 1, 64]⟩ : Shape).Idx → EReal :=
  fun i => Sage.out a0 a1 (fun e => Cert.ReferenceIdeal.Read.val_main_v4 (F := Ideal) a2 (ix1 e)) (fun e => a3 (ix1 e))
    (fun n => Cert.ReferenceIdeal.Read.val_main_v20 (F := Ideal) a3 (ix1 n)) a4 a5 a6 a7 (i 0) (i 2)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with `result` of the arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run (F := Ideal) m ρ)
    funext i
    obtain ⟨n, z, o, rfl⟩ : ∃ (n : Fin 100000) (z : Fin 1) (o : Fin 64), i = ix3 n z o := ⟨i 0, i 1, i 2, eq_ix3 i⟩
    obtain rfl : z = 0 := Subsingleton.elim _ _
    refine (Cert.KernelIdeal.KValue.out_eq m ρ c n o).trans ?_
    show _ = Sage.out _ _ _ _ _ _ _ _ _ n o
    simp only [srcW_eq, cnt_eq]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq]
    obtain ⟨h0, h1, h2, h3, h4, h5, h6, h7⟩ := hagree c
    rw [h0, h1, h2, h3, h4, h5, h6, h7]
    funext i
    obtain ⟨n, z, o, rfl⟩ : ∃ (n : Fin 100000) (z : Fin 1) (o : Fin 64), i = ix3 n z o := ⟨i 0, i 1, i 2, eq_ix3 i⟩
    obtain rfl : z = 0 := Subsingleton.elim _ _
    exact Cert.ReferenceIdeal.RefValue.out_eq _ _ _ _ _ _ _ _ n o

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
